-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S2x800000 : Shape := ⟨2, ![2, 800000]⟩
abbrev S2x200000 : Shape := ⟨2, ![2, 200000]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x256 .f32) (main_arg1 : FVec F S256x128 .f32) (main_arg2 : FVec F S128 .f32) (main_arg3 : FVec F S128x64 .f32) (main_arg4 : FVec F S64 .f32) (main_arg5 : IVec S2x800000 32) (main_arg6 : IVec S2x200000 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_v13 main_v16
-- ==== Kernel.lean ====
abbrev S50000x256 : Shape := ⟨2, ![50000, 256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S2x800000 : Shape := ⟨2, ![2, 800000]⟩
abbrev S2x200000 : Shape := ⟨2, ![2, 200000]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x128 : Shape := ⟨2, ![50000, 128]⟩
abbrev S2000x256 : Shape := ⟨2, ![2000, 256]⟩
abbrev S2000x128 : Shape := ⟨2, ![2000, 128]⟩
abbrev S800000x128 : Shape := ⟨2, ![800000, 128]⟩
abbrev S1x128 : Shape := ⟨2, ![1, 128]⟩
abbrev S5000x128 : Shape := ⟨2, ![5000, 128]⟩
abbrev S5000x1 : Shape := ⟨2, ![5000, 1]⟩
abbrev S50000x64 : Shape := ⟨2, ![50000, 64]⟩
abbrev S2000x64 : Shape := ⟨2, ![2000, 64]⟩
abbrev S800000x64 : Shape := ⟨2, ![800000, 64]⟩
abbrev S1x64 : Shape := ⟨2, ![1, 64]⟩
abbrev S5000x64 : Shape := ⟨2, ![5000, 64]⟩
abbrev S1x200000 : Shape := ⟨2, ![1, 200000]⟩
abbrev S200000 : Shape := ⟨1, ![200000]⟩
abbrev S200000x1 : Shape := ⟨2, ![200000, 1]⟩
abbrev S200000x64 : Shape := ⟨2, ![200000, 64]⟩

abbrev nBuf : Space → Nat
  | .hbm => 107
  | .vmem => 28
  | .smem => 0
  | _ => 0

abbrev bufTy : (tb : Table) → Fin (tcTables nBuf tb) → BufTy
  | .hbm, ⟨0, _⟩ => ⟨S50000x256, .f32⟩
  | .hbm, ⟨1, _⟩ => ⟨S256x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S2x800000, .i32⟩
  | .hbm, ⟨6, _⟩ => ⟨S2x200000, .i32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .f32⟩
  | .hbm, ⟨12, _⟩ => ⟨S800000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S50000, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000, .f32⟩
  | .hbm, ⟨39, _⟩ => ⟨S800000, .f32⟩
  | .hbm, ⟨40, _⟩ => ⟨S50000, .f32⟩
  | .hbm, ⟨41, _⟩ => ⟨S50000x1, .f32⟩
  | .hbm, ⟨42, _⟩ => ⟨S256x128, .bf16⟩
  | .hbm, ⟨43, _⟩ => ⟨S128x64, .bf16⟩
  | .hbm, ⟨44, _⟩ => ⟨S50000x128, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x128, .f32⟩
  | .hbm, ⟨54, _⟩ => ⟨S800000x1, .f32⟩
  | .hbm, ⟨55, _⟩ => ⟨S800000x128, .f32⟩
  | .hbm, ⟨56, _⟩ => ⟨S800000x128, .f32⟩
  | .hbm, ⟨57, _⟩ => ⟨S_, .f32⟩
  | .hbm, ⟨58, _⟩ => ⟨S50000x128, .f32⟩
  | .hbm, ⟨59, _⟩ => ⟨S800000x1, .i32⟩
  | .hbm, ⟨60, _⟩ => ⟨S50000x128, .f32⟩
  | .hbm, ⟨61, _⟩ => ⟨S1x128, .f32⟩
  | .hbm, ⟨62, _⟩ => ⟨S50000x128, .f32⟩
  | .hbm, ⟨63, _⟩ => ⟨S50000x64, .f32⟩
  | .hbm, ⟨64, _⟩ => ⟨S_, .i32⟩
  | .hbm, ⟨65, _⟩ => ⟨S800000, .i32⟩
  | .hbm, ⟨66, _⟩ => ⟨S800000, .i1⟩
  | .hbm, ⟨67, _⟩ => ⟨S_, .i32⟩
  | .hbm, ⟨68, _⟩ => ⟨S800000, .i32⟩
  | .hbm, ⟨69, _⟩ => ⟨S800000, .i32⟩
  | .hbm, ⟨70, _⟩ => ⟨S800000, .i32⟩
  | .hbm, ⟨71, _⟩ => ⟨S800000x1, .i32⟩
  | .hbm, ⟨72, _⟩ => ⟨S800000x64, .f32⟩
  | .hbm, ⟨73, _⟩ => ⟨S800000x1, .f32⟩
  | .hbm, ⟨74, _⟩ => ⟨S800000x64, .f32⟩
  | .hbm, ⟨75, _⟩ => ⟨S800000x64, .f32⟩
  | .hbm, ⟨76, _⟩ => ⟨S_, .f32⟩
  | .hbm, ⟨77, _⟩ => ⟨S50000x64, .f32⟩
  | .hbm, ⟨78, _⟩ => ⟨S800000x1, .i32⟩
  | .hbm, ⟨79, _⟩ => ⟨S50000x64, .f32⟩
  | .hbm, ⟨80, _⟩ => ⟨S1x64, .f32⟩
  | .hbm, ⟨81, _⟩ => ⟨S50000x64, .f32⟩
  | .hbm, ⟨82, _⟩ => ⟨S1x200000, .i32⟩
  | .hbm, ⟨83, _⟩ => ⟨S200000, .i32⟩
  | .hbm, ⟨84, _⟩ => ⟨S1x200000, .i32⟩
  | .hbm, ⟨85, _⟩ => ⟨S200000, .i32⟩
  | .hbm, ⟨86, _⟩ => ⟨S_, .i32⟩
  | .hbm, ⟨87, _⟩ => ⟨S200000, .i32⟩
  | .hbm, ⟨88, _⟩ => ⟨S200000, .i1⟩
  | .hbm, ⟨89, _⟩ => ⟨S_, .i32⟩
  | .hbm, ⟨90, _⟩ => ⟨S200000, .i32⟩
  | .hbm, ⟨91, _⟩ => ⟨S200000, .i32⟩
  | .hbm, ⟨92, _⟩ => ⟨S200000, .i32⟩
  | .hbm, ⟨93, _⟩ => ⟨S200000x1, .i32⟩
  | .hbm, ⟨94, _⟩ => ⟨S200000x64, .f32⟩
  | .hbm, ⟨95, _⟩ => ⟨S_, .i32⟩
  | .hbm, ⟨96, _⟩ => ⟨S200000, .i32⟩
  | .hbm, ⟨97, _⟩ => ⟨S200000, .i1⟩
  | .hbm, ⟨98, _⟩ => ⟨S_, .i32⟩
  | .hbm, ⟨99, _⟩ => ⟨S200000, .i32⟩
  | .hbm, ⟨100, _⟩ => ⟨S200000, .i32⟩
  | .hbm, ⟨101, _⟩ => ⟨S200000, .i32⟩
  | .hbm, ⟨102, _⟩ => ⟨S200000x1, .i32⟩
  | .hbm, ⟨103, _⟩ => ⟨S200000x64, .f32⟩
  | .hbm, ⟨104, _⟩ => ⟨S200000x64, .f32⟩
  | .hbm, ⟨105, _⟩ => ⟨S_, .f32⟩
  | .hbm, ⟨106, _⟩ => ⟨S200000, .f32⟩
  | .local _ .vmem, ⟨0, _⟩ => ⟨S2000x256, .f32⟩
  | .local _ .vmem, ⟨1, _⟩ => ⟨S2000x256, .f32⟩
  | .local _ .vmem, ⟨2, _⟩ => ⟨S256x128, .bf16⟩
  | .local _ .vmem, ⟨3, _⟩ => ⟨S2000x128, .f32⟩
  | .local _ .vmem, ⟨4, _⟩ => ⟨S2000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S2000x128, .f32⟩
  | .local _ .vmem, ⟨15, _⟩ => ⟨S2000x128, .f32⟩
  | .local _ .vmem, ⟨16, _⟩ => ⟨S128x64, .bf16⟩
  | .local _ .vmem, ⟨17, _⟩ => ⟨S2000x64, .f32⟩
  | .local _ .vmem, ⟨18, _⟩ => ⟨S2000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x1, .f32⟩
  | .local _ .vmem, ⟨24, _⟩ => ⟨S5000x1, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_c_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_5 : Ref sig .tc := ⟨.hbm, 45, rfl⟩
abbrev main_v31 : Ref sig .tc := ⟨.hbm, 46, rfl⟩
abbrev main_v32 : Ref sig .tc := ⟨.hbm, 47, rfl⟩
abbrev main_c_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_c_8 : Ref sig .tc := ⟨.hbm, 64, rfl⟩
abbrev main_v47 : Ref sig .tc := ⟨.hbm, 65, rfl⟩
abbrev main_v48 : Ref sig .tc := ⟨.hbm, 66, rfl⟩
abbrev main_c_9 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_10 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_c_11 : Ref sig .tc := ⟨.hbm, 86, rfl⟩
abbrev main_v66 : Ref sig .tc := ⟨.hbm, 87, rfl⟩
abbrev main_v67 : Ref sig .tc := ⟨.hbm, 88, rfl⟩
abbrev main_c_12 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_c_13 : Ref sig .tc := ⟨.hbm, 95, rfl⟩
abbrev main_v73 : Ref sig .tc := ⟨.hbm, 96, rfl⟩
abbrev main_v74 : Ref sig .tc := ⟨.hbm, 97, rfl⟩
abbrev main_c_14 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_cst_15 : Ref sig .tc := ⟨.hbm, 105, rfl⟩
abbrev main_v81 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bitsLt_bf16_f32 : FTy.bits .bf16 < FTy.bits .f32
  inb_S2000x256_S2000x256_0_0 : ∀ a, (![0, 0] : Fin 2 → Nat) a + S2000x256.size a ≤ S2000x256.size a
  h_S2000x256 : 0 < S2000x256.numel
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S2000x128_S2000x128_0_0 : ∀ a, (![0, 0] : Fin 2 → Nat) a + S2000x128.size a ≤ S2000x128.size a
  h_S2000x128 : 0 < S2000x128.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S2000x128_S2000x128 : S2000x128.ShapeCasts S2000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S2000x64_S2000x64_0_0 : ∀ a, (![0, 0] : Fin 2 → Nat) a + S2000x64.size a ≤ S2000x64.size a
  h_S2000x64 : 0 < S2000x64.numel
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S200000 : S_.BroadcastsInDim S200000 (![] : Fin 0 → Fin S200000.rank)
  bcast_S200000_S200000x1_0 : S200000.BroadcastsInDim S200000x1 (![0] : Fin 1 → Fin S200000x1.rank)
  reducesTo_S200000x64_S200000_d1 : S200000x64.ReducesTo [1] S200000
  h_S_ : 0 < S_.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S2000x256_S256x128_S2000x128_1_0_0_1_n_n_wf : DotDims.WF S2000x256 S256x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x64_S2000x64_1_0_0_1_n_n_wf : DotDims.WF S2000x128 S128x64 S2000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  gather_S50000x64_S200000x1_S200000x64_1_0_n_n_0_1_164_wf : GatherDims.WF S50000x64 S200000x1 S200000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .bf16 = 32 ∨ (Rect.block (s := S256x128) S256x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .bf16 = 32 ∨ (Rect.block (s := S128x64) S128x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S50000x64.size a
  hwx2_2 : ∀ i : grid2.Coords, EltTy.bits .f32 = 32 ∨ (Rect.block (s := S50000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S50000x64.size a
  hwx3_1 : ∀ i : grid3.Coords, EltTy.bits .f32 = 32 ∨ (Rect.block (s := S50000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S50000x64.size a
  hwx3_4 : ∀ i : grid3.Coords, EltTy.bits .f32 = 32 ∨ (Rect.block (s := S50000x64) S5000x64.size (cc3_transform_4 i) (hinb3_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def gather_S50000x64_S200000x1_S200000x64_1_0_n_n_0_1_164 : GatherDims S50000x64 S200000x1 S200000x64 where
  offsetDims := [1]
  collapsedSliceDims := [0]
  operandBatchingDims := []
  startIndicesBatchingDims := []
  startIndexMap := [0]
  indexVectorDim := 1
  sliceSizes := ![1, 64]
  wf := gather_S50000x64_S200000x1_S200000x64_1_0_n_n_0_1_164_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v45) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v45) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v46) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v27) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v60) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v61) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S50000x256 : Shape := ⟨2, ![50000, 256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S2x800000 : Shape := ⟨2, ![2, 800000]⟩
abbrev S2x200000 : Shape := ⟨2, ![2, 200000]⟩
abbrev S1x800000 : Shape := ⟨2, ![1, 800000]⟩
abbrev S800000 : Shape := ⟨1, ![800000]⟩
abbrev S50000x128 : Shape := ⟨2, ![50000, 128]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S50000x64 : Shape := ⟨2, ![50000, 64]⟩
abbrev S800000x64 : Shape := ⟨2, ![800000, 64]⟩
abbrev S1x64 : Shape := ⟨2, ![1, 64]⟩
abbrev S1x200000 : Shape := ⟨2, ![1, 200000]⟩
abbrev S200000 : Shape := ⟨1, ![200000]⟩
abbrev S200000x1 : Shape := ⟨2, ![200000, 1]⟩
abbrev S200000x64 : Shape := ⟨2, ![200000, 64]⟩

abbrev nBuf : Space → Nat
  | .hbm => 147
  | .vmem => 0
  | .smem => 0
  | _ => 0

abbrev hbmTy0_0 (i : Nat) : BufTy := match i % 128 with
  | 0 => ⟨S50000x256, .f32⟩
  | 1 => ⟨S256x128, .f32⟩
  | 2 => ⟨S128, .f32⟩
  | 3 => ⟨S128x64, .f32⟩
  | 4 => ⟨S64, .f32⟩
  | 5 => ⟨S2x800000, .i32⟩
  | 6 => ⟨S2x200000, .i32⟩
  | 7 => ⟨S1x800000, .i32⟩
  | 8 => ⟨S800000, .i32⟩
  | 9 => ⟨S1x800000, .i32⟩
  | 10 => ⟨S800000, .i32⟩
  | 11 => ⟨S50000x128, .f32⟩
  | 12 => ⟨S_, .f32⟩
  | 13 => ⟨S800000, .f32⟩
  | 14 => ⟨S_, .f32⟩
  | 15 => ⟨S50000, .f32⟩
  | 16 => ⟨S800000x1, .i32⟩
  | 17 => ⟨S50000, .f32⟩
  | 18 => ⟨S_, .f32⟩
  | 19 => ⟨S50000, .f32⟩
  | 20 => ⟨S50000, .f32⟩
  | 21 => ⟨S50000, .f32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S800000, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000, .f32⟩
  | 40 => ⟨S800000, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000x128, .f32⟩
  | 50 => ⟨S800000x1, .f32⟩
  | 51 => ⟨S800000x128, .f32⟩
  | 52 => ⟨S800000x128, .f32⟩
  | 53 => ⟨S_, .f32⟩
  | 54 => ⟨S50000x128, .f32⟩
  | 55 => ⟨S800000x1, .i32⟩
  | 56 => ⟨S50000x128, .f32⟩
  | 57 => ⟨S50000, .f32⟩
  | 58 => ⟨S50000x1, .f32⟩
  | 59 => ⟨S50000x128, .f32⟩
  | 60 => ⟨S50000x128, .f32⟩
  | 61 => ⟨S50000x128, .f32⟩
  | 62 => ⟨S1x128, .f32⟩
  | 63 => ⟨S50000x128, .f32⟩
  | 64 => ⟨S50000x128, .f32⟩
  | 65 => ⟨S_, .f32⟩
  | 66 => ⟨S50000x128, .f32⟩
  | 67 => ⟨S50000x128, .f32⟩
  | 68 => ⟨S50000x64, .f32⟩
  | 69 => ⟨S_, .f32⟩
  | 70 => ⟨S800000, .f32⟩
  | 71 => ⟨S_, .f32⟩
  | 72 => ⟨S50000, .f32⟩
  | 73 => ⟨S800000x1, .i32⟩
  | 74 => ⟨S50000, .f32⟩
  | 75 => ⟨S_, .f32⟩
  | 76 => ⟨S50000, .f32⟩
  | 77 => ⟨S50000, .f32⟩
  | 78 => ⟨S50000, .f32⟩
  | 79 => ⟨S_, .i32⟩
  | 80 => ⟨S800000, .i32⟩
  | 81 => ⟨S800000, .i1⟩
  | 82 => ⟨S_, .i32⟩
  | 83 => ⟨S800000, .i32⟩
  | 84 => ⟨S800000, .i32⟩
  | 85 => ⟨S800000, .i32⟩
  | 86 => ⟨S800000x1, .i32⟩
  | 87 => ⟨S800000, .f32⟩
  | 88 => ⟨S_, .i32⟩
  | 89 => ⟨S800000, .i32⟩
  | 90 => ⟨S800000, .i1⟩
  | 91 => ⟨S_, .i32⟩
  | 92 => ⟨S800000, .i32⟩
  | 93 => ⟨S800000, .i32⟩
  | 94 => ⟨S800000, .i32⟩
  | 95 => ⟨S800000x1, .i32⟩
  | 96 => ⟨S800000, .f32⟩
  | 97 => ⟨S800000, .f32⟩
  | 98 => ⟨S_, .i32⟩
  | 99 => ⟨S800000, .i32⟩
  | 100 => ⟨S800000, .i1⟩
  | 101 => ⟨S_, .i32⟩
  | 102 => ⟨S800000, .i32⟩
  | 103 => ⟨S800000, .i32⟩
  | 104 => ⟨S800000, .i32⟩
  | 105 => ⟨S800000x1, .i32⟩
  | 106 => ⟨S800000x64, .f32⟩
  | 107 => ⟨S800000x1, .f32⟩
  | 108 => ⟨S800000x64, .f32⟩
  | 109 => ⟨S800000x64, .f32⟩
  | 110 => ⟨S_, .f32⟩
  | 111 => ⟨S50000x64, .f32⟩
  | 112 => ⟨S800000x1, .i32⟩
  | 113 => ⟨S50000x64, .f32⟩
  | 114 => ⟨S50000, .f32⟩
  | 115 => ⟨S50000x1, .f32⟩
  | 116 => ⟨S50000x64, .f32⟩
  | 117 => ⟨S50000x64, .f32⟩
  | 118 => ⟨S50000x64, .f32⟩
  | 119 => ⟨S1x64, .f32⟩
  | 120 => ⟨S50000x64, .f32⟩
  | 121 => ⟨S50000x64, .f32⟩
  | 122 => ⟨S1x200000, .i32⟩
  | 123 => ⟨S200000, .i32⟩
  | 124 => ⟨S_, .i32⟩
  | 125 => ⟨S200000, .i32⟩
  | 126 => ⟨S200000, .i1⟩
  | 127 => ⟨S_, .i32⟩
  | _ => ⟨S50000x256, .f32⟩

abbrev hbmTy0_1 (i : Nat) : BufTy := match i % 128 with
  | 0 => ⟨S200000, .i32⟩
  | 1 => ⟨S200000, .i32⟩
  | 2 => ⟨S200000, .i32⟩
  | 3 => ⟨S200000x1, .i32⟩
  | 4 => ⟨S200000x64, .f32⟩
  | 5 => ⟨S1x200000, .i32⟩
  | 6 => ⟨S200000, .i32⟩
  | 7 => ⟨S_, .i32⟩
  | 8 => ⟨S200000, .i32⟩
  | 9 => ⟨S200000, .i1⟩
  | 10 => ⟨S_, .i32⟩
  | 11 => ⟨S200000, .i32⟩
  | 12 => ⟨S200000, .i32⟩
  | 13 => ⟨S200000, .i32⟩
  | 14 => ⟨S200000x1, .i32⟩
  | 15 => ⟨S200000x64, .f32⟩
  | 16 => ⟨S200000x64, .f32⟩
  | 17 => ⟨S_, .f32⟩
  | 18 => ⟨S200000, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_c_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_call0_cst : Ref sig .tc := ⟨.hbm, 65, rfl⟩
abbrev main_call0_v0 : Ref sig .tc := ⟨.hbm, 66, rfl⟩
abbrev main_v48 : Ref sig .tc := ⟨.hbm, 67, rfl⟩
abbrev main_v49 : Ref sig .tc := ⟨.hbm, 68, rfl⟩
abbrev main_cst_8 : Ref sig .tc := ⟨.hbm, 69, rfl⟩
abbrev main_v50 : Ref sig .tc := ⟨.hbm, 70, rfl⟩
abbrev main_cst_9 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_10 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_11 : Ref sig .tc := ⟨.hbm, 79, rfl⟩
abbrev main_v57 : Ref sig .tc := ⟨.hbm, 80, rfl⟩
abbrev main_v58 : Ref sig .tc := ⟨.hbm, 81, rfl⟩
abbrev main_c_12 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_c_13 : Ref sig .tc := ⟨.hbm, 88, rfl⟩
abbrev main_v64 : Ref sig .tc := ⟨.hbm, 89, rfl⟩
abbrev main_v65 : Ref sig .tc := ⟨.hbm, 90, rfl⟩
abbrev main_c_14 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_c_15 : Ref sig .tc := ⟨.hbm, 98, rfl⟩
abbrev main_v72 : Ref sig .tc := ⟨.hbm, 99, rfl⟩
abbrev main_v73 : Ref sig .tc := ⟨.hbm, 100, rfl⟩
abbrev main_c_16 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_17 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_c_18 : Ref sig .tc := ⟨.hbm, 124, rfl⟩
abbrev main_v95 : Ref sig .tc := ⟨.hbm, 125, rfl⟩
abbrev main_v96 : Ref sig .tc := ⟨.hbm, 126, rfl⟩
abbrev main_c_19 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_c_20 : Ref sig .tc := ⟨.hbm, 135, rfl⟩
abbrev main_v104 : Ref sig .tc := ⟨.hbm, 136, rfl⟩
abbrev main_v105 : Ref sig .tc := ⟨.hbm, 137, rfl⟩
abbrev main_c_21 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_cst_22 : Ref sig .tc := ⟨.hbm, 145, rfl⟩
abbrev main_v112 : Ref sig .tc := ⟨.hbm, 146, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  reducesTo_S200000x64_S200000_d1 : S200000x64.ReducesTo [1] S200000
  h_S_ : 0 < S_.numel
  dot_S50000x256_S256x128_S50000x128_1_0_0_1_n_n_wf : DotDims.WF S50000x256 S256x128 S50000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  gather_S50000x64_S200000x1_S200000x64_1_0_n_n_0_1_164_wf : GatherDims.WF S50000x64 S200000x1 S200000x64 [1] [0] [] [0] [] 1 ![1, 64]

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def gather_S50000x64_S200000x1_S200000x64_1_0_n_n_0_1_164 : GatherDims S50000x64 S200000x1 S200000x64 where
  offsetDims := [1]
  collapsedSliceDims := [0]
  operandBatchingDims := []
  startIndicesBatchingDims := []
  startIndexMap := [0]
  indexVectorDim := 1
  sliceSizes := ![1, 64]
  wf := gather_S50000x64_S200000x1_S200000x64_1_0_n_n_0_1_164_wf

class Facts : Prop extends Facts₀ where

variable [Facts]
-- ==== Proof.KRun.lean ====
/-
  The idealized kernel program's run with its result kept. Its @main is eight segments: four stretches of host
  operations and four pipelined regions. The buffer contents at the eight boundaries are a fold from the launch memory
  (`W0` … `W8`): a host stretch applies its operations in order, a region leaves each of its output arrays at what its
  grid points wrote back and every other buffer as it found it. Every weakly fair execution terminates without a
  fault, and in the final state every unscoped buffer holds the last boundary's contents: in particular the result
  buffer holds `W8` at it, and the seven argument arrays are as launched, since no segment writes one.
-/
import proofs.«140468_j30296699306334_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of @main terminates, nothing faulting, with the
    result buffer at the last boundary's contents and the argument arrays as launched. -/
theorem run_result : θ_run defs (onTc (τ := τ) (main (F := F))) ⟨m, fun _ => 0, ρ⟩ (fun r => ∀ c : Dev nD,
      r.2.mem ((c.tc : Thread nD τ).loc main_v81) = W8 m ρ c (Proc.devRef .tc main_v81)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v81 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c)⟩)

end Cert.KernelIdeal.RunValue

end
-- ==== Proof.Stages.lean ====
/-
  The four dense stages of the two-layer graph convolution, each as ONE whole-array function of the arrays it reads,
  written over the reference program's shapes and broadcast records.

  * `proj128 x w` / `proj64 h w`: the feature projection, entry (r, j) the inner product of row r of the features
    with column j of the weights.
  * `combine128 agg h s b`: the first layer's node update, entry (r, j) = max ((agg r j + s r · h r j) + b j) 0 —
    the neighbourhood sum, plus the self-loop term scaled by the node's own normalisation, plus the bias, rectified.
  * `combine64 agg z s b`: the second layer's node update, the same without the rectifier.
-/
import proofs.«140468_j30296699306334_2_alg».proof.Proof.Gen.ReferenceIdeal
import Idealize.ShloMosaic.PureOps.Ideal

noncomputable section

namespace Cert.Stage

open Idealize.ShloMosaic Cert.ReferenceIdeal Cert.ReferenceIdeal.Facts₀

/-- Features [50000, 256] times weights [256, 128]. -/
def proj128 (x : FVec Ideal S50000x256 .f32) (w : FVec Ideal S256x128 .f32) : FVec Ideal S50000x128 .f32 :=
  Host.dotGeneral (F := Ideal) dot_S50000x256_S256x128_S50000x128_1_0_0_1_n_n none x w

/-- Hidden features [50000, 128] times weights [128, 64]. -/
def proj64 (h : FVec Ideal S50000x128 .f32) (w : FVec Ideal S128x64 .f32) : FVec Ideal S50000x64 .f32 :=
  Host.dotGeneral (F := Ideal) dot_S50000x128_S128x64_S50000x64_1_0_0_1_n_n none h w

/-- The first layer's node update: (agg + s · h) + b, then max with 0; `s` a column [50000, 1], `b` a row [1, 128]. -/
def combine128 (agg h : FVec Ideal S50000x128 .f32) (s : FVec Ideal S50000x1 .f32) (b : FVec Ideal S1x128 .f32) :
    FVec Ideal S50000x128 .f32 :=
  maximumf (F := Ideal)
    (addf (addf agg (mulf (broadcastInDim S50000x128 ![0, 1] bcast_S50000x1_S50000x128_0_1 s) h))
      (broadcastInDim S50000x128 ![0, 1] bcast_S1x128_S50000x128_0_1 b))
    (broadcastInDim S50000x128 ![] bcast_S_S50000x128 (constant (F := Ideal) S_ .f32 0x00000000#32))

/-- The second layer's node update: (agg + s · z) + b; `s` a column [50000, 1], `b` a row [1, 64]. -/
def combine64 (agg z : FVec Ideal S50000x64 .f32) (s : FVec Ideal S50000x1 .f32) (b : FVec Ideal S1x64 .f32) :
    FVec Ideal S50000x64 .f32 :=
  addf (F := Ideal) (addf agg (mulf (broadcastInDim S50000x64 ![0, 1] bcast_S50000x1_S50000x64_0_1 s) z))
    (broadcastInDim S50000x64 ![0, 1] bcast_S1x64_S50000x64_0_1 b)

end Cert.Stage

end
-- ==== Proof.RefStages.lean ====
/-
  The reference program read stage by stage. Its two dense projections and its two node updates are the stage
  functions of the arrays they read, and the quantities it computes twice (once per layer) from the edge list alone —
  the normalisation vector `dinv = rsqrt (deg + 1)`, the edge weights `norm = dinv[src] · dinv[dst]` and the self-loop
  scale `dinv · dinv` as a column — are the same arrays both times, since they are the same operations of the same
  edge list.
-/
import proofs.«140468_j30296699306334_2_alg».proof.Proof.Gen.ReferenceIdeal.Read
import proofs.«140468_j30296699306334_2_alg».proof.Proof.Stages

set_option maxRecDepth 16384

noncomputable section

namespace Cert.ReferenceIdeal.Stages

open Idealize.ShloMosaic Cert.ReferenceIdeal Cert.ReferenceIdeal.Read Cert.Stage

variable (x0 : FVec Ideal S50000x256 .f32) (x1 : FVec Ideal S256x128 .f32) (x2 : FVec Ideal S128 .f32)
  (x3 : FVec Ideal S128x64 .f32) (x4 : FVec Ideal S64 .f32) (x5 : IVec S2x800000 32)

/-- The first projection is the product of the features with the first weights. -/
theorem hlin_eq : val_main_v4 (F := Ideal) x0 x1 = proj128 x0 x1 := rfl

/-- The second layer's normalisation vector is the first layer's. -/
theorem dinv_again : val_main_v56 (F := Ideal) x5 = val_main_v11 (F := Ideal) x5 := rfl

/-- The second layer's edge weights are the first layer's. -/
theorem norm_again : val_main_v71 (F := Ideal) x5 = val_main_v26 (F := Ideal) x5 := rfl

/-- The second layer's self-loop scale column is the first layer's. -/
theorem scale_again : val_main_v86 (F := Ideal) x5 = val_main_v41 (F := Ideal) x5 := rfl

/-- The first layer's output: the node update of the neighbourhood sums, the projected features, the scale column and
    the bias row. -/
theorem h_eq : val_main_v48 (F := Ideal) x0 x1 x2 x5
    = combine128 (val_main_v39 (F := Ideal) x0 x1 x5) (val_main_v4 (F := Ideal) x0 x1) (val_main_v41 (F := Ideal) x5)
        (val_main_v45 (F := Ideal) x2) := rfl

/-- The second projection is the product of the first layer's output with the second weights. -/
theorem zlin_eq : val_main_v49 (F := Ideal) x0 x1 x2 x3 x5 = proj64 (val_main_v48 (F := Ideal) x0 x1 x2 x5) x3 := rfl

/-- The second layer's output, with the scale column the second layer computed. -/
theorem z_eq : val_main_v92 (F := Ideal) x0 x1 x2 x3 x4 x5
    = combine64 (val_main_v84 (F := Ideal) x0 x1 x2 x3 x5) (val_main_v49 (F := Ideal) x0 x1 x2 x3 x5)
        (val_main_v86 (F := Ideal) x5) (val_main_v90 (F := Ideal) x4) := rfl

end Cert.ReferenceIdeal.Stages

end
-- ==== Proof.LibPlainDot.lean ====
/-
  A plain matrix product — an [M, K] operand times a [K, N] operand, the left one contracted on its second axis
  and the right one on its first, no batch axis — read at the entry (r, c) over the extended reals: the sum over
  k of the left operand at (r, k) times the right operand at (k, c). Stated once for the on-chip product
  accumulated into a zero splat and once for the host's dot_general, for any dimension record that is the plain
  one, so that both sides of a comparison land on the same sum over `Fin K`.
-/
import Idealize.ShloMosaic.Lib.ValueIdx
import Idealize.ShloMosaic.PureOps.Ideal.Laws

noncomputable section

namespace Cert.PlainDot

open Idealize.ShloMosaic Idealize.ShloMosaic.ValueIdx

variable {M K N : ℕ}

/-- The contraction index of the plain product has one axis, of extent `K`. -/
theorem contr_rank : (DotDims.plain M K N).contr.rank = 1 := rfl
theorem contr_size : (DotDims.plain M K N).contr.size ⟨0, by rw [contr_rank]; exact Nat.one_pos⟩ = K := rfl

/-- The one-coordinate contraction index with coordinate `k`. -/
abbrev cidx (k : Fin K) : (DotDims.plain M K N).contr.Idx := (contrEquiv1 (DotDims.plain M K N) K contr_rank contr_size).symm k

/-- The left operand is read at row `r`, column `k`. -/
theorem lhsIdx_eq (r : Fin M) (c : Fin N) (k : Fin K) :
    (DotDims.plain M K N).lhsIdx (ix2 r c) (cidx k) = ix2 r k := by
  funext a
  apply Fin.ext
  match a with
  | ⟨0, _⟩ => rfl
  | ⟨1, _⟩ =>
    exact ((DotDims.plain M K N).lhsIdx_val_of_single rfl (ix2 r c) (cidx k)).trans
      (contrEquiv1_symm_val (DotDims.plain M K N) K contr_rank contr_size k)

/-- The right operand is read at row `k`, column `c`. -/
theorem rhsIdx_eq (r : Fin M) (c : Fin N) (k : Fin K) :
    (DotDims.plain M K N).rhsIdx (ix2 r c) (cidx k) = ix2 k c := by
  funext a
  apply Fin.ext
  match a with
  | ⟨0, _⟩ =>
    exact ((DotDims.plain M K N).rhsIdx_val_of_single rfl (ix2 r c) (cidx k)).trans
      (contrEquiv1_symm_val (DotDims.plain M K N) K contr_rank contr_size k)
  | ⟨1, _⟩ => rfl

/-- The contraction sum of the plain product, re-indexed over `Fin K`. -/
theorem sum_eq (l : (⟨2, ![M, K]⟩ : Shape).Idx → EReal) (r : (⟨2, ![K, N]⟩ : Shape).Idx → EReal) (p : Fin M) (c : Fin N) :
    (∑ q : (DotDims.plain M K N).contr.Idx, l ((DotDims.plain M K N).lhsIdx (ix2 p c) q) * r ((DotDims.plain M K N).rhsIdx (ix2 p c) q))
      = ∑ k : Fin K, l (ix2 p k) * r (ix2 k c) := by
  rw [← Equiv.sum_comp (contrEquiv1 (DotDims.plain M K N) K contr_rank contr_size).symm]
  refine Finset.sum_congr rfl fun k _ => ?_
  rw [lhsIdx_eq p c k, rhsIdx_eq p c k]

/-- The on-chip product accumulated into the zero splat, at entry `(p, c)`: the plain sum. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (c : Fin N) :
    FloatOps.matmul d prec l r (constant (F := Ideal) ⟨2, ![M, N]⟩ .f32 0x00000000#32) (ix2 p c) = ∑ k : Fin K, l (ix2 p k) * r (ix2 k c) := by
  subst hd
  rw [Ideal.matmul_constant_zero_apply]
  exact sum_eq l r p c

/-- The host's dot_general at entry `(p, c)`: the same plain sum, whatever the precision and the schedule key. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂) (p : Fin M) (c : Fin N) :
    FloatOps.dotGeneral d prec sched l r (ix2 p c) = ∑ k : Fin K, l (ix2 p k) * r (ix2 k c) := by
  subst hd
  rw [Ideal.dotGeneral_apply]
  exact sum_eq l r p c

end Cert.PlainDot

end
-- ==== Proof.ProjBlocks.lean ====
/-
  The two feature projections of the graph convolution, each run as a pipeline of 25 row blocks, read as whole
  arrays: after all 25 points have written their blocks back, the projection's result array holds the matrix
  product of the feature array and the weight array the pipeline was entered with.

  Per projection the steps are: one entry of what a point leaves in its output block is the inner product of a row
  of its feature block with a column of the weights; the feature block of point t is rows 2000·t … 2000·t + 1999
  of the feature array, the weight block is the whole weight array, and the output block goes to the same rows of
  the result; so the entry written at row 2000·t + p, column j is the inner product of row 2000·t + p of the
  features with column j of the weights, which is that entry of the whole product; and the 25 row blocks tile
  the 50000 rows.
-/
import proofs.«140468_j30296699306334_2_alg».proof.Proof.Gen.KernelIdeal.Frame
import proofs.«140468_j30296699306334_2_alg».proof.Proof.Stages
import proofs.«140468_j30296699306334_2_alg».proof.Proof.LibPlainDot
import Idealize.ShloMosaic.Lib.Pipeline.Value
import Idealize.ShloMosaic.Lib.ValueIdx
import Idealize.ShloMosaic.Lib.Tactic

noncomputable section

namespace Cert.KernelIdeal.Blocks

open Idealize.ShloMosaic Idealize.ShloMosaic.TcCoe Idealize.SL.Sem Cert.KernelIdeal Cert.KernelIdeal.Gen
open Idealize.ShloMosaic.ValueIdx
open Idealize.ShloMosaic.Pipeline (Dat)

/-- The zero offsets of a whole-block access, as a constant function. -/
theorem zero_offsets : (![0, 0] : Fin 2 → Nat) = fun _ => 0 := funext fun a => by fin_cases a <;> rfl

/-! ## The first projection: features [50000, 256] times weights [256, 128] -/

/-- Entry (p, j) of what a point leaves in its output block: the sum over k of the feature block at (p, k) times
    the weight block at (k, j). The narrowing of the features and the cast of the weights to their own shape change
    nothing over the extended reals, and the product accumulates into zero. -/
theorem out0_entry (x0 : Vec Ideal S2000x256 .f32) (x1 : Vec Ideal S256x128 .bf16) (p : Fin 2000) (j : Fin 128) :
    out0_2 (F := Ideal) x0 x1 (ix2 p j)
      = ∑ k : Fin 256, (x0 : FVec Ideal S2000x256 .f32) (ix2 p k) * (x1 : FVec Ideal S256x128 .bf16) (ix2 k j) := by
  unfold out0_2
  rw [View.canon_unit_zero zero_offsets]
  simp only [View.ld_unit_zero (S := S2000x256) zero_offsets, View.ld_unit_zero (S := S256x128) zero_offsets]
  unfold k0_pay1
  rw [shapeCast_self]
  exact Cert.PlainDot.matmul_zero_apply (φ₁ := .bf16) (φ₂ := .bf16) dot_S2000x256_S256x128_S2000x128_1_0_0_1_n_n rfl none
    (truncf .bf16 (x0 : FVec Ideal S2000x256 .f32) bitsLt_bf16_f32) (x1 : FVec Ideal S256x128 .bf16) p j

/-- Entry (r, j) of the whole product: the sum over k of the features at (r, k) times the weights at (k, j). -/
theorem proj128_entry (a : FVec Ideal S50000x256 .f32) (w : FVec Ideal S256x128 .f32) (r : Fin 50000) (j : Fin 128) :
    Cert.Stage.proj128 a w (ix2 r j) = ∑ k : Fin 256, a (ix2 r k) * w (ix2 k j) := by
  unfold Cert.Stage.proj128
  exact Cert.PlainDot.dotGeneral_apply _ rfl none _ a w r j

/-- A point's output entry is the whole product's entry at the row it is written to, once the feature block's row p
    is row r of the feature array and the weight block is the weight array. -/
theorem out0_entry_eq_proj (x0 : Vec Ideal S2000x256 .f32) (x1 : Vec Ideal S256x128 .bf16)
    (a : FVec Ideal S50000x256 .f32) (w : FVec Ideal S256x128 .f32) (p : Fin 2000) (r : Fin 50000) (j : Fin 128)
    (hx0 : ∀ k : Fin 256, (x0 : FVec Ideal S2000x256 .f32) (ix2 p k) = a (ix2 r k))
    (hx1 : ∀ k : Fin 256, (x1 : FVec Ideal S256x128 .bf16) (ix2 k j) = w (ix2 k j)) :
    out0_2 (F := Ideal) x0 x1 (ix2 p j) = Cert.Stage.proj128 a w (ix2 r j) := by
  rw [out0_entry, proj128_entry]
  exact Finset.sum_congr rfl fun k _ => by rw [hx0 k, hx1 k]

/-- The same at an index y of the block and an index i of the array, related by i = (2000·n + y₀, y₁): the block's
    entries are given as reads of the arrays at related indices. -/
theorem out0_at (x0 : Vec Ideal S2000x256 .f32) (x1 : Vec Ideal S256x128 .bf16)
    (a : FVec Ideal S50000x256 .f32) (w : FVec Ideal S256x128 .f32) (n : Nat)
    (y : S2000x128.Idx) (i : S50000x128.Idx)
    (hi0 : (i 0).val = 2000 * n + (y 0).val) (hi1 : (i 1).val = (y 1).val)
    (hx0 : ∀ (x : S2000x256.Idx) (u : S50000x256.Idx), (u 0).val = 2000 * n + (x 0).val → (u 1).val = (x 1).val →
      (x0 : FVec Ideal S2000x256 .f32) x = a u)
    (hx1 : ∀ x : S256x128.Idx, (x1 : FVec Ideal S256x128 .bf16) x = w x) :
    out0_2 (F := Ideal) x0 x1 y = Cert.Stage.proj128 a w i := by
  obtain ⟨p, j, rfl⟩ : ∃ (p : Fin 2000) (j : Fin 128), y = ix2 p j := ⟨y 0, y 1, eq_ix2 y⟩
  obtain ⟨r, j', rfl⟩ : ∃ (r : Fin 50000) (j' : Fin 128), i = ix2 r j' := ⟨i 0, i 1, eq_ix2 i⟩
  have hr : r.val = 2000 * n + p.val := hi0
  obtain rfl : j' = j := Fin.ext hi1
  exact out0_entry_eq_proj x0 x1 a w p r j' (fun k => hx0 (ix2 p k) (ix2 r k) hr rfl) (fun k => hx1 (ix2 k j'))

/-- The index maps over the grid: at point t the feature window and the result window sit at block row t, block
    column 0, and the weight window at block (0, 0). -/
theorem index_maps0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- The feature block of point t is rows 2000·t … 2000·t + 1999 of the feature array. -/
theorem features0_block (c : Dev nD) (t : Fin cfg0.N) (x : S2000x256.Idx) (u : S50000x256.Idx)
    (hu0 : (u 0).val = 2000 * t.val + (x 0).val) (hu1 : (u 1).val = (x 1).val) :
    (iblk0 (F := Ideal) V c 0 t : FVec Ideal S2000x256 .f32) x
      = (V c (Pipeline.arrRef spec0 0) : FVec Ideal S50000x256 .f32) u := by
  obtain ⟨e0, e1, -⟩ := index_maps0 t
  unfold iblk0
  rw [View.read_apply]
  show (V c (Pipeline.arrRef spec0 0) : FVec Ideal S50000x256 .f32) (((cfg0.win 0).blk t).view.emb x)
    = (V c (Pipeline.arrRef spec0 0) : FVec Ideal S50000x256 .f32) u
  refine congrArg (V c (Pipeline.arrRef spec0 0) : FVec Ideal S50000x256 .f32) ?_
  funext d
  apply Fin.ext
  match d with
  | ⟨0, _⟩ => show win0_0.index t (0 : Fin 2) * 2000 + 1 * (x 0).val = (u 0).val; omega
  | ⟨1, _⟩ => show win0_0.index t (1 : Fin 2) * 256 + 1 * (x 1).val = (u 1).val; omega

/-- The weight block of every point is the whole weight array. -/
theorem weights0_block (c : Dev nD) (t : Fin cfg0.N) (x : S256x128.Idx) :
    (iblk0 (F := Ideal) V c 1 t : FVec Ideal S256x128 .bf16) x
      = (V c (Pipeline.arrRef spec0 1) : FVec Ideal S256x128 .f32) x := by
  obtain ⟨-, -, e0, e1, -⟩ := index_maps0 t
  unfold iblk0
  rw [View.read_apply]
  show (V c (Pipeline.arrRef spec0 1) : FVec Ideal S256x128 .f32) (((cfg0.win 1).blk t).view.emb x)
    = (V c (Pipeline.arrRef spec0 1) : FVec Ideal S256x128 .f32) x
  refine congrArg (V c (Pipeline.arrRef spec0 1) : FVec Ideal S256x128 .f32) ?_
  funext d
  apply Fin.ext
  match d with
  | ⟨0, _⟩ => show win0_1.index t (0 : Fin 2) * 256 + 1 * (x 0).val = (x 0).val; omega
  | ⟨1, _⟩ => show win0_1.index t (1 : Fin 2) * 128 + 1 * (x 1).val = (x 1).val; omega

/-- What point t writes back is block t of the whole product of the two arrays the region was entered with. -/
theorem flushed0_eq (c : Dev nD) (t : Fin cfg0.N) :
    (dat0 (F := Ideal) V c).flushed 2 t
      = ((cfg0.win 2).blk t).view.read (Elt Ideal)
          (Cert.Stage.proj128 (V c (Pipeline.arrRef spec0 0)) (V c (Pipeline.arrRef spec0 1))) := by
  show (cfg0.win 2).cut (grid0.coords t) ((dat0 V c).after 2 t) = _
  rw [after0_2]
  obtain ⟨-, -, -, -, e0, e1⟩ := index_maps0 t
  funext y
  rw [View.read_apply]
  show out0_2 (F := Ideal) (iblk0 V c 0 t) (iblk0 V c 1 t) y
    = Cert.Stage.proj128 (V c (Pipeline.arrRef spec0 0)) (V c (Pipeline.arrRef spec0 1)) (((cfg0.win 2).blk t).view.emb y)
  refine out0_at (iblk0 V c 0 t) (iblk0 V c 1 t) (V c (Pipeline.arrRef spec0 0)) (V c (Pipeline.arrRef spec0 1)) t.val
    y (((cfg0.win 2).blk t).view.emb y) ?_ ?_ (fun x u h0 h1 => features0_block V c t x u h0 h1) (fun x => weights0_block V c t x)
  · show win0_2.index t (0 : Fin 2) * 2000 + 1 * (y 0).val = 2000 * t.val + (y 0).val; omega
  · show win0_2.index t (1 : Fin 2) * 128 + 1 * (y 1).val = (y 1).val; omega

/-- An index of the result array is in point t's block iff each coordinate is in the block's range on its axis. -/
theorem mem_block0 (t : Fin cfg0.N) (i : S50000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v30).slice (win0_2.rect t)).set ↔ _
  rw [View.set_slice_whole, Rect.mem_set_unit]
  exact Iff.rfl

/-- The 25 row blocks tile the result array: row r is in the block of point r / 2000. -/
theorem cover0 (i : S50000x128.Idx) :
    ∃ t : Fin cfg0.N, (cfg0.win 2).flush t = true ∧ i ∈ ((cfg0.win 2).blk t).view.set := by
  have hN : grid0.N = 25 := N_0
  have hi0 : (i 0).val < 50000 := (i 0).isLt
  have hi1 : (i 1).val < 128 := (i 1).isLt
  have ht : (i 0).val / 2000 < grid0.N := by rw [hN]; omega
  obtain ⟨-, -, -, -, e0, e1⟩ := index_maps0 ⟨(i 0).val / 2000, ht⟩
  have e0' : win0_2.index ⟨(i 0).val / 2000, ht⟩ (0 : Fin 2) = (i 0).val / 2000 := e0
  refine ⟨⟨(i 0).val / 2000, ht⟩, flush0_2 _, ?_⟩
  rw [mem_block0]
  intro a
  match a with
  | ⟨0, _⟩ =>
    show win0_2.index ⟨(i 0).val / 2000, ht⟩ (0 : Fin 2) * 2000 ≤ (i 0).val
      ∧ (i 0).val < win0_2.index ⟨(i 0).val / 2000, ht⟩ (0 : Fin 2) * 2000 + 2000
    omega
  | ⟨1, _⟩ =>
    show win0_2.index ⟨(i 0).val / 2000, ht⟩ (1 : Fin 2) * 128 ≤ (i 1).val
      ∧ (i 1).val < win0_2.index ⟨(i 0).val / 2000, ht⟩ (1 : Fin 2) * 128 + 128
    omega

/-- The result array after the 25 points: the whole product of the feature array and the weight array. -/
theorem proj128_blocks (c : Dev nD) :
    (dat0 (F := Ideal) V c).arrAt 2 cfg0.N
      = Cert.Stage.proj128 (V c (Pipeline.arrRef spec0 0)) (V c (Pipeline.arrRef spec0 1)) :=
  (dat0 (F := Ideal) V c).arrAt_eq_of_cover 2 _ (fun t _ => flushed0_eq V c t) cover0

/-! ## The second projection: hidden features [50000, 128] times weights [128, 64] -/

/-- Entry (p, j) of what a point leaves in its output block: the sum over k of the feature block at (p, k) times
    the weight block at (k, j). The casts of both blocks to their own shapes and the narrowing of the features change
    nothing over the extended reals, and the product accumulates into zero. -/
theorem out2_entry (x0 : Vec Ideal S2000x128 .f32) (x1 : Vec Ideal S128x64 .bf16) (p : Fin 2000) (j : Fin 64) :
    out2_2 (F := Ideal) x0 x1 (ix2 p j)
      = ∑ k : Fin 128, (x0 : FVec Ideal S2000x128 .f32) (ix2 p k) * (x1 : FVec Ideal S128x64 .bf16) (ix2 k j) := by
  unfold out2_2
  rw [View.canon_unit_zero zero_offsets]
  simp only [View.ld_unit_zero (S := S2000x128) zero_offsets, View.ld_unit_zero (S := S128x64) zero_offsets]
  unfold k2_pay1
  rw [shapeCast_self, shapeCast_self]
  exact Cert.PlainDot.matmul_zero_apply (φ₁ := .bf16) (φ₂ := .bf16) dot_S2000x128_S128x64_S2000x64_1_0_0_1_n_n rfl none
    (truncf .bf16 (x0 : FVec Ideal S2000x128 .f32) bitsLt_bf16_f32) (x1 : FVec Ideal S128x64 .bf16) p j

/-- Entry (r, j) of the whole product: the sum over k of the features at (r, k) times the weights at (k, j). -/
theorem proj64_entry (a : FVec Ideal S50000x128 .f32) (w : FVec Ideal S128x64 .f32) (r : Fin 50000) (j : Fin 64) :
    Cert.Stage.proj64 a w (ix2 r j) = ∑ k : Fin 128, a (ix2 r k) * w (ix2 k j) := by
  unfold Cert.Stage.proj64
  exact Cert.PlainDot.dotGeneral_apply _ rfl none _ a w r j

/-- A point's output entry is the whole product's entry at the row it is written to, once the feature block's row p
    is row r of the feature array and the weight block is the weight array. -/
theorem out2_entry_eq_proj (x0 : Vec Ideal S2000x128 .f32) (x1 : Vec Ideal S128x64 .bf16)
    (a : FVec Ideal S50000x128 .f32) (w : FVec Ideal S128x64 .f32) (p : Fin 2000) (r : Fin 50000) (j : Fin 64)
    (hx0 : ∀ k : Fin 128, (x0 : FVec Ideal S2000x128 .f32) (ix2 p k) = a (ix2 r k))
    (hx1 : ∀ k : Fin 128, (x1 : FVec Ideal S128x64 .bf16) (ix2 k j) = w (ix2 k j)) :
    out2_2 (F := Ideal) x0 x1 (ix2 p j) = Cert.Stage.proj64 a w (ix2 r j) := by
  rw [out2_entry, proj64_entry]
  exact Finset.sum_congr rfl fun k _ => by rw [hx0 k, hx1 k]

/-- The same at an index y of the block and an index i of the array, related by i = (2000·n + y₀, y₁): the block's
    entries are given as reads of the arrays at related indices. -/
theorem out2_at (x0 : Vec Ideal S2000x128 .f32) (x1 : Vec Ideal S128x64 .bf16)
    (a : FVec Ideal S50000x128 .f32) (w : FVec Ideal S128x64 .f32) (n : Nat)
    (y : S2000x64.Idx) (i : S50000x64.Idx)
    (hi0 : (i 0).val = 2000 * n + (y 0).val) (hi1 : (i 1).val = (y 1).val)
    (hx0 : ∀ (x : S2000x128.Idx) (u : S50000x128.Idx), (u 0).val = 2000 * n + (x 0).val → (u 1).val = (x 1).val →
      (x0 : FVec Ideal S2000x128 .f32) x = a u)
    (hx1 : ∀ x : S128x64.Idx, (x1 : FVec Ideal S128x64 .bf16) x = w x) :
    out2_2 (F := Ideal) x0 x1 y = Cert.Stage.proj64 a w i := by
  obtain ⟨p, j, rfl⟩ : ∃ (p : Fin 2000) (j : Fin 64), y = ix2 p j := ⟨y 0, y 1, eq_ix2 y⟩
  obtain ⟨r, j', rfl⟩ : ∃ (r : Fin 50000) (j' : Fin 64), i = ix2 r j' := ⟨i 0, i 1, eq_ix2 i⟩
  have hr : r.val = 2000 * n + p.val := hi0
  obtain rfl : j' = j := Fin.ext hi1
  exact out2_entry_eq_proj x0 x1 a w p r j' (fun k => hx0 (ix2 p k) (ix2 r k) hr rfl) (fun k => hx1 (ix2 k j'))

/-- The index maps over the grid: at point t the feature window and the result window sit at block row t, block
    column 0, and the weight window at block (0, 0). -/
theorem index_maps2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The feature block of point t is rows 2000·t … 2000·t + 1999 of the feature array. -/
theorem features2_block (c : Dev nD) (t : Fin cfg2.N) (x : S2000x128.Idx) (u : S50000x128.Idx)
    (hu0 : (u 0).val = 2000 * t.val + (x 0).val) (hu1 : (u 1).val = (x 1).val) :
    (iblk2 (F := Ideal) V c 0 t : FVec Ideal S2000x128 .f32) x
      = (V c (Pipeline.arrRef spec2 0) : FVec Ideal S50000x128 .f32) u := by
  obtain ⟨e0, e1, -⟩ := index_maps2 t
  unfold iblk2
  rw [View.read_apply]
  show (V c (Pipeline.arrRef spec2 0) : FVec Ideal S50000x128 .f32) (((cfg2.win 0).blk t).view.emb x)
    = (V c (Pipeline.arrRef spec2 0) : FVec Ideal S50000x128 .f32) u
  refine congrArg (V c (Pipeline.arrRef spec2 0) : FVec Ideal S50000x128 .f32) ?_
  funext d
  apply Fin.ext
  match d with
  | ⟨0, _⟩ => show win2_0.index t (0 : Fin 2) * 2000 + 1 * (x 0).val = (u 0).val; omega
  | ⟨1, _⟩ => show win2_0.index t (1 : Fin 2) * 128 + 1 * (x 1).val = (u 1).val; omega

/-- The weight block of every point is the whole weight array. -/
theorem weights2_block (c : Dev nD) (t : Fin cfg2.N) (x : S128x64.Idx) :
    (iblk2 (F := Ideal) V c 1 t : FVec Ideal S128x64 .bf16) x
      = (V c (Pipeline.arrRef spec2 1) : FVec Ideal S128x64 .f32) x := by
  obtain ⟨-, -, e0, e1, -⟩ := index_maps2 t
  unfold iblk2
  rw [View.read_apply]
  show (V c (Pipeline.arrRef spec2 1) : FVec Ideal S128x64 .f32) (((cfg2.win 1).blk t).view.emb x)
    = (V c (Pipeline.arrRef spec2 1) : FVec Ideal S128x64 .f32) x
  refine congrArg (V c (Pipeline.arrRef spec2 1) : FVec Ideal S128x64 .f32) ?_
  funext d
  apply Fin.ext
  match d with
  | ⟨0, _⟩ => show win2_1.index t (0 : Fin 2) * 128 + 1 * (x 0).val = (x 0).val; omega
  | ⟨1, _⟩ => show win2_1.index t (1 : Fin 2) * 64 + 1 * (x 1).val = (x 1).val; omega

/-- What point t writes back is block t of the whole product of the two arrays the region was entered with. -/
theorem flushed2_eq (c : Dev nD) (t : Fin cfg2.N) :
    (dat2 (F := Ideal) V c).flushed 2 t
      = ((cfg2.win 2).blk t).view.read (Elt Ideal)
          (Cert.Stage.proj64 (V c (Pipeline.arrRef spec2 0)) (V c (Pipeline.arrRef spec2 1))) := by
  show (cfg2.win 2).cut (grid2.coords t) ((dat2 V c).after 2 t) = _
  rw [after2_2]
  obtain ⟨-, -, -, -, e0, e1⟩ := index_maps2 t
  funext y
  rw [View.read_apply]
  show out2_2 (F := Ideal) (iblk2 V c 0 t) (iblk2 V c 1 t) y
    = Cert.Stage.proj64 (V c (Pipeline.arrRef spec2 0)) (V c (Pipeline.arrRef spec2 1)) (((cfg2.win 2).blk t).view.emb y)
  refine out2_at (iblk2 V c 0 t) (iblk2 V c 1 t) (V c (Pipeline.arrRef spec2 0)) (V c (Pipeline.arrRef spec2 1)) t.val
    y (((cfg2.win 2).blk t).view.emb y) ?_ ?_ (fun x u h0 h1 => features2_block V c t x u h0 h1) (fun x => weights2_block V c t x)
  · show win2_2.index t (0 : Fin 2) * 2000 + 1 * (y 0).val = 2000 * t.val + (y 0).val; omega
  · show win2_2.index t (1 : Fin 2) * 64 + 1 * (y 1).val = (y 1).val; omega

/-- An index of the result array is in point t's block iff each coordinate is in the block's range on its axis. -/
theorem mem_block2 (t : Fin cfg2.N) (i : S50000x64.Idx) :
    i ∈ ((cfg2.win 2).blk t).view.set ↔ ∀ a : Fin 2, win2_2.index t a * S2000x64.size a ≤ (i a).val
      ∧ (i a).val < win2_2.index t a * S2000x64.size a + S2000x64.size a := by
  show i ∈ ((View.whole main_v46).slice (win2_2.rect t)).set ↔ _
  rw [View.set_slice_whole, Rect.mem_set_unit]
  exact Iff.rfl

/-- The 25 row blocks tile the result array: row r is in the block of point r / 2000. -/
theorem cover2 (i : S50000x64.Idx) :
    ∃ t : Fin cfg2.N, (cfg2.win 2).flush t = true ∧ i ∈ ((cfg2.win 2).blk t).view.set := by
  have hN : grid2.N = 25 := N_2
  have hi0 : (i 0).val < 50000 := (i 0).isLt
  have hi1 : (i 1).val < 64 := (i 1).isLt
  have ht : (i 0).val / 2000 < grid2.N := by rw [hN]; omega
  obtain ⟨-, -, -, -, e0, e1⟩ := index_maps2 ⟨(i 0).val / 2000, ht⟩
  have e0' : win2_2.index ⟨(i 0).val / 2000, ht⟩ (0 : Fin 2) = (i 0).val / 2000 := e0
  refine ⟨⟨(i 0).val / 2000, ht⟩, flush2_2 _, ?_⟩
  rw [mem_block2]
  intro a
  match a with
  | ⟨0, _⟩ =>
    show win2_2.index ⟨(i 0).val / 2000, ht⟩ (0 : Fin 2) * 2000 ≤ (i 0).val
      ∧ (i 0).val < win2_2.index ⟨(i 0).val / 2000, ht⟩ (0 : Fin 2) * 2000 + 2000
    omega
  | ⟨1, _⟩ =>
    show win2_2.index ⟨(i 0).val / 2000, ht⟩ (1 : Fin 2) * 64 ≤ (i 1).val
      ∧ (i 1).val < win2_2.index ⟨(i 0).val / 2000, ht⟩ (1 : Fin 2) * 64 + 64
    omega

/-- The result array after the 25 points: the whole product of the feature array and the weight array. -/
theorem proj64_blocks (c : Dev nD) :
    (dat2 (F := Ideal) V c).arrAt 2 cfg2.N
      = Cert.Stage.proj64 (V c (Pipeline.arrRef spec2 0)) (V c (Pipeline.arrRef spec2 1)) :=
  (dat2 (F := Ideal) V c).arrAt_eq_of_cover 2 _ (fun t _ => flushed2_eq V c t) cover2

end Cert.KernelIdeal.Blocks

end
-- ==== Proof.LibBroadcasts.lean ====
/-
  Three broadcasts read at an entry.

  A scalar splat reads the scalar everywhere.  A vector `[a]` laid as a column `[a, 1]` and then along `b` columns reads,
  at `(n, j)`, the vector at `n`.  A vector `[b]` laid as a row `[1, b]` and then down `a` rows reads, at `(n, j)`, the
  vector at `j`.
-/
import Idealize.ShloMosaic.Lib.Pipeline.Value
import Idealize.ShloMosaic.Lib.ValueIdx

noncomputable section

namespace Cert.Broadcasts

open Idealize.ShloMosaic Idealize.ShloMosaic.ValueIdx

variable {α : Type}

/-- A splat of a scalar reads the scalar at every index. -/
theorem splat_apply {t : Shape} (dims : Fin (⟨0, ![]⟩ : Shape).rank → Fin t.rank) (h : (⟨0, ![]⟩ : Shape).BroadcastsInDim t dims)
    (x : (⟨0, ![]⟩ : Shape).Idx → α) (j : t.Idx) : broadcastInDim t dims h x j = x ix0 :=
  broadcastInDim_apply dims h x j ix0 (fun q => q.elim0)

/-- A vector laid as a column and then along the columns: at `(n, j)` the vector at `n`. -/
theorem alongColumns_apply {a b : ℕ} (d : (⟨1, ![a]⟩ : Shape).Idx → α)
    (h0 : (⟨1, ![a]⟩ : Shape).BroadcastsInDim ⟨2, ![a, 1]⟩ ![0])
    (h1 : (⟨2, ![a, 1]⟩ : Shape).BroadcastsInDim ⟨2, ![a, b]⟩ ![0, 1]) (n : Fin a) (j : Fin b) :
    broadcastInDim ⟨2, ![a, b]⟩ ![0, 1] h1 (broadcastInDim ⟨2, ![a, 1]⟩ ![0] h0 d) (ix2 n j) = d (ix1 n) := by
  refine (broadcastInDim_apply ![0, 1] h1 _ (ix2 n j) (ix2 n (0 : Fin 1)) (fun q => ?_)).trans ?_
  · match q with
    | ⟨0, _⟩ =>
      show n.val = if a = 1 then 0 else n.val
      by_cases ha : a = 1
      · rw [if_pos ha]; have := n.isLt; omega
      · rw [if_neg ha]
    | ⟨1, _⟩ =>
      show (0 : ℕ) = if (1 : ℕ) = 1 then 0 else j.val
      rw [if_pos rfl]
  · refine broadcastInDim_apply ![0] h0 d (ix2 n (0 : Fin 1)) (ix1 n) (fun q => ?_)
    match q with
    | ⟨0, _⟩ =>
      show n.val = if a = 1 then 0 else n.val
      by_cases ha : a = 1
      · rw [if_pos ha]; have := n.isLt; omega
      · rw [if_neg ha]

/-- A vector laid as a row and then down the rows: at `(n, j)` the vector at `j`. -/
theorem downRows_apply {a b : ℕ} (x : (⟨1, ![b]⟩ : Shape).Idx → α)
    (h0 : (⟨1, ![b]⟩ : Shape).BroadcastsInDim ⟨2, ![1, b]⟩ ![1])
    (h1 : (⟨2, ![1, b]⟩ : Shape).BroadcastsInDim ⟨2, ![a, b]⟩ ![0, 1]) (n : Fin a) (j : Fin b) :
    broadcastInDim ⟨2, ![a, b]⟩ ![0, 1] h1 (broadcastInDim ⟨2, ![1, b]⟩ ![1] h0 x) (ix2 n j) = x (ix1 j) := by
  refine (broadcastInDim_apply ![0, 1] h1 _ (ix2 n j) (ix2 (0 : Fin 1) j) (fun q => ?_)).trans ?_
  · match q with
    | ⟨0, _⟩ =>
      show (0 : ℕ) = if (1 : ℕ) = 1 then 0 else n.val
      rw [if_pos rfl]
    | ⟨1, _⟩ =>
      show j.val = if b = 1 then 0 else j.val
      by_cases hb : b = 1
      · rw [if_pos hb]; have := j.isLt; omega
      · rw [if_neg hb]
  · refine broadcastInDim_apply ![1] h0 x (ix2 (0 : Fin 1) j) (ix1 j) (fun q => ?_)
    match q with
    | ⟨0, _⟩ =>
      show j.val = if b = 1 then 0 else j.val
      by_cases hb : b = 1
      · rw [if_pos hb]; have := j.isLt; omega
      · rw [if_neg hb]

/-- A vector laid as a column: at `(n, u)` the vector at `n`. -/
theorem column_apply {a : ℕ} (d : (⟨1, ![a]⟩ : Shape).Idx → α)
    (h0 : (⟨1, ![a]⟩ : Shape).BroadcastsInDim ⟨2, ![a, 1]⟩ ![0]) (n : Fin a) (u : Fin 1) :
    broadcastInDim ⟨2, ![a, 1]⟩ ![0] h0 d (ix2 n u) = d (ix1 n) := by
  refine broadcastInDim_apply ![0] h0 d (ix2 n u) (ix1 n) (fun q => ?_)
  match q with
  | ⟨0, _⟩ =>
    show n.val = if a = 1 then 0 else n.val
    by_cases ha : a = 1
    · rw [if_pos ha]; have := n.isLt; omega
    · rw [if_neg ha]

end Cert.Broadcasts

end
-- ==== Proof.CombineBlocks.lean ====
/-
  The two node-update regions of the two-layer graph convolution, each read as ONE whole-array function of the
  arrays it reads.

  A node update takes the neighbourhood sums `agg`, the projected features `h`, the per-node self-loop scale `s`
  (a column) and the bias `b` (a row), and leaves at entry (r, j)

      (agg (r, j) + s (r, 0) · h (r, j)) + b (0, j),

  rectified by a maximum with zero in the first layer and left as it is in the second.  The region walks ten row
  blocks of 5000 rows; point t stages rows 5000·t … 5000·t + 4999 of `agg`, of `h` and of `s`, the whole bias row,
  and writes back the same rows of the result.  Entry (p, j) of point t's block therefore depends on row 5000·t + p of
  `agg`, `h`, `s` and on column j of `b`, and the ten blocks tile the 50000 rows: the point covering row r is r / 5000.
-/
import proofs.«140468_j30296699306334_2_alg».proof.Proof.Gen.KernelIdeal.Frame
import proofs.«140468_j30296699306334_2_alg».proof.Proof.Stages
import proofs.«140468_j30296699306334_2_alg».proof.Proof.LibBroadcasts
import Idealize.ShloMosaic.Lib.Pipeline.Value
import Idealize.ShloMosaic.Lib.ValueIdx

noncomputable section

namespace Cert.KernelIdeal.Blocks

open Idealize.ShloMosaic Idealize.ShloMosaic.TcCoe Idealize.SL.Sem Cert.KernelIdeal Cert.KernelIdeal.Gen
open Idealize.ShloMosaic.ValueIdx

/-- The zero offsets of a whole-block access, as the constant function. -/
theorem combine_zero_offsets : (![0, 0] : Fin 2 → Nat) = fun _ => 0 := funext fun a => by fin_cases a <;> rfl

/-! ## The first layer's update at an entry -/

/-- What a point leaves in its output block, at entry (p, j): the block of `agg` at (p, j), plus the column block at
    (p, 0) times the block of `h` at (p, j), plus the bias row at (0, j), then the maximum with the zero word.  The
    column is laid along the 128 lanes and the row down the 5000 rows; every other step is pointwise. -/
theorem out1_4_entry (x0 x1 : Vec Ideal S5000x128 .f32) (x2 : Vec Ideal S5000x1 .f32) (x3 : Vec Ideal S1x128 .f32)
    (p : Fin 5000) (j : Fin 128) :
    out1_4 (F := Ideal) x0 x1 x2 x3 (ix2 p j)
      = max ((x0 (ix2 p j) + x2 (ix2 p (0 : Fin 1)) * x1 (ix2 p j)) + x3 (ix2 (0 : Fin 1) j))
          (Ideal.ofBits .f32 0x00000000#32) := by
  unfold out1_4
  rw [View.canon_unit_zero combine_zero_offsets]
  simp only [View.ld_unit_zero (S := S5000x128) combine_zero_offsets, View.ld_unit_zero (S := S5000x1) combine_zero_offsets,
    View.ld_unit_zero (S := S1x128) combine_zero_offsets]
  unfold k1_pay1
  simp only [shapeCast_self]
  rw [maximumf_apply, addf_apply, addf_apply, mulf_apply, broadcast_apply]
  have e2 : broadcastTo S5000x128 x2 broadcasts_S5000x1_S5000x128 (ix2 p j) = x2 (ix2 p (0 : Fin 1)) := by
    refine broadcastTo_apply x2 broadcasts_S5000x1_S5000x128 (ix2 p j) (ix2 p (0 : Fin 1)) (fun a => ?_)
    match a with
    | ⟨0, _⟩ => rfl
    | ⟨1, _⟩ => rfl
  have e3 : broadcastTo S5000x128 x3 broadcasts_S1x128_S5000x128 (ix2 p j) = x3 (ix2 (0 : Fin 1) j) := by
    refine broadcastTo_apply x3 broadcasts_S1x128_S5000x128 (ix2 p j) (ix2 (0 : Fin 1) j) (fun a => ?_)
    match a with
    | ⟨0, _⟩ => rfl
    | ⟨1, _⟩ => rfl
  rw [e2, e3]
  rfl

/-- The whole-array update at entry (r, j): the same expression over the arrays, the column read at (r, 0) and the
    row at (0, j) through their broadcasts along the second and the first axis, the scalar zero read everywhere. -/
theorem combine128_entry (agg h : FVec Ideal Cert.ReferenceIdeal.S50000x128 .f32)
    (s : FVec Ideal Cert.ReferenceIdeal.S50000x1 .f32) (b : FVec Ideal Cert.ReferenceIdeal.S1x128 .f32)
    (r : Fin 50000) (j : Fin 128) :
    Cert.Stage.combine128 agg h s b (ix2 r j)
      = max ((agg (ix2 r j) + s (ix2 r (0 : Fin 1)) * h (ix2 r j)) + b (ix2 (0 : Fin 1) j))
          (Ideal.ofBits .f32 0x00000000#32) := by
  unfold Cert.Stage.combine128
  rw [maximumf_apply, addf_apply, addf_apply, mulf_apply]
  have es : broadcastInDim Cert.ReferenceIdeal.S50000x128 ![0, 1]
      Cert.ReferenceIdeal.Facts₀.bcast_S50000x1_S50000x128_0_1 s (ix2 r j) = s (ix2 r (0 : Fin 1)) := by
    refine broadcastInDim_apply ![0, 1] _ s (ix2 r j) (ix2 r (0 : Fin 1)) (fun a => ?_)
    match a with
    | ⟨0, _⟩ => rfl
    | ⟨1, _⟩ => rfl
  have eb : broadcastInDim Cert.ReferenceIdeal.S50000x128 ![0, 1]
      Cert.ReferenceIdeal.Facts₀.bcast_S1x128_S50000x128_0_1 b (ix2 r j) = b (ix2 (0 : Fin 1) j) := by
    refine broadcastInDim_apply ![0, 1] _ b (ix2 r j) (ix2 (0 : Fin 1) j) (fun a => ?_)
    match a with
    | ⟨0, _⟩ => rfl
    | ⟨1, _⟩ => rfl
  rw [es, eb, Cert.Broadcasts.splat_apply]
  rfl

/-! ## The second layer's update at an entry: the same without the maximum -/

/-- What a point leaves in its output block, at entry (p, j), over 64 lanes. -/
theorem out3_4_entry (x0 x1 : Vec Ideal S5000x64 .f32) (x2 : Vec Ideal S5000x1 .f32) (x3 : Vec Ideal S1x64 .f32)
    (p : Fin 5000) (j : Fin 64) :
    out3_4 (F := Ideal) x0 x1 x2 x3 (ix2 p j)
      = (x0 (ix2 p j) + x2 (ix2 p (0 : Fin 1)) * x1 (ix2 p j)) + x3 (ix2 (0 : Fin 1) j) := by
  unfold out3_4
  rw [View.canon_unit_zero combine_zero_offsets]
  simp only [View.ld_unit_zero (S := S5000x64) combine_zero_offsets, View.ld_unit_zero (S := S5000x1) combine_zero_offsets,
    View.ld_unit_zero (S := S1x64) combine_zero_offsets]
  unfold k3_pay1
  simp only [shapeCast_self]
  rw [addf_apply, addf_apply, mulf_apply]
  have e2 : broadcastTo S5000x64 x2 broadcasts_S5000x1_S5000x64 (ix2 p j) = x2 (ix2 p (0 : Fin 1)) := by
    refine broadcastTo_apply x2 broadcasts_S5000x1_S5000x64 (ix2 p j) (ix2 p (0 : Fin 1)) (fun a => ?_)
    match a with
    | ⟨0, _⟩ => rfl
    | ⟨1, _⟩ => rfl
  have e3 : broadcastTo S5000x64 x3 broadcasts_S1x64_S5000x64 (ix2 p j) = x3 (ix2 (0 : Fin 1) j) := by
    refine broadcastTo_apply x3 broadcasts_S1x64_S5000x64 (ix2 p j) (ix2 (0 : Fin 1) j) (fun a => ?_)
    match a with
    | ⟨0, _⟩ => rfl
    | ⟨1, _⟩ => rfl
  rw [e2, e3]

/-- The whole-array update at entry (r, j), over 64 columns. -/
theorem combine64_entry (agg z : FVec Ideal Cert.ReferenceIdeal.S50000x64 .f32)
    (s : FVec Ideal Cert.ReferenceIdeal.S50000x1 .f32) (b : FVec Ideal Cert.ReferenceIdeal.S1x64 .f32)
    (r : Fin 50000) (j : Fin 64) :
    Cert.Stage.combine64 agg z s b (ix2 r j)
      = (agg (ix2 r j) + s (ix2 r (0 : Fin 1)) * z (ix2 r j)) + b (ix2 (0 : Fin 1) j) := by
  unfold Cert.Stage.combine64
  rw [addf_apply, addf_apply, mulf_apply]
  have es : broadcastInDim Cert.ReferenceIdeal.S50000x64 ![0, 1]
      Cert.ReferenceIdeal.Facts₀.bcast_S50000x1_S50000x64_0_1 s (ix2 r j) = s (ix2 r (0 : Fin 1)) := by
    refine broadcastInDim_apply ![0, 1] _ s (ix2 r j) (ix2 r (0 : Fin 1)) (fun a => ?_)
    match a with
    | ⟨0, _⟩ => rfl
    | ⟨1, _⟩ => rfl
  have eb : broadcastInDim Cert.ReferenceIdeal.S50000x64 ![0, 1]
      Cert.ReferenceIdeal.Facts₀.bcast_S1x64_S50000x64_0_1 b (ix2 r j) = b (ix2 (0 : Fin 1) j) := by
    refine broadcastInDim_apply ![0, 1] _ b (ix2 r j) (ix2 (0 : Fin 1) j) (fun a => ?_)
    match a with
    | ⟨0, _⟩ => rfl
    | ⟨1, _⟩ => rfl
  rw [es, eb]

variable (V : (c : Dev nD) → (b : Ref sig .tc) → Buf (Elt Ideal) ((c : Thread nD τ).loc b))

/-! ## The first layer's region: blocks, cover, array -/

/-- The block indices at point t: the three row-blocked inputs and the output sit at row block t, column block 0; the
    bias row sits at block (0, 0) at every point. -/
theorem index_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Entry (p, j) of point t's block of `agg` is `agg` at row r = 5000·t + p, column j. -/
theorem agg_block1 (c : Dev nD) (t : Fin cfg1.N) (p : Fin 5000) (j : Fin 128) (r : Fin 50000)
    (hr : r.val = 5000 * t.val + p.val) :
    (iblk1 V c 0 t : Vec Ideal S5000x128 .f32) (ix2 p j)
      = (V c (Pipeline.arrRef spec1 0) : S50000x128.Idx → Elt Ideal .f32) (ix2 r j) := by
  obtain ⟨e0, e1, -⟩ := index_facts1 t
  unfold iblk1
  rw [View.read_apply]
  show V c main_v43 _ = V c main_v43 _
  congr 1
  funext a
  apply Fin.ext
  match a with
  | ⟨0, _⟩ => show win1_0.index t 0 * 5000 + 1 * p.val = r.val; rw [e0, hr]; omega
  | ⟨1, _⟩ => show win1_0.index t 1 * 128 + 1 * j.val = j.val; rw [e1]; omega

/-- Entry (p, j) of point t's block of `h` is `h` at row r = 5000·t + p, column j. -/
theorem h_block1 (c : Dev nD) (t : Fin cfg1.N) (p : Fin 5000) (j : Fin 128) (r : Fin 50000)
    (hr : r.val = 5000 * t.val + p.val) :
    (iblk1 V c 1 t : Vec Ideal S5000x128 .f32) (ix2 p j)
      = (V c (Pipeline.arrRef spec1 1) : S50000x128.Idx → Elt Ideal .f32) (ix2 r j) := by
  obtain ⟨-, -, e0, e1, -⟩ := index_facts1 t
  unfold iblk1
  rw [View.read_apply]
  show V c main_v30 _ = V c main_v30 _
  congr 1
  funext a
  apply Fin.ext
  match a with
  | ⟨0, _⟩ => show win1_1.index t 0 * 5000 + 1 * p.val = r.val; rw [e0, hr]; omega
  | ⟨1, _⟩ => show win1_1.index t 1 * 128 + 1 * j.val = j.val; rw [e1]; omega

/-- Entry (p, 0) of point t's block of the scale column is the column at row r = 5000·t + p. -/
theorem s_block1 (c : Dev nD) (t : Fin cfg1.N) (p : Fin 5000) (u : Fin 1) (r : Fin 50000)
    (hr : r.val = 5000 * t.val + p.val) :
    (iblk1 V c 2 t : Vec Ideal S5000x1 .f32) (ix2 p u)
      = (V c (Pipeline.arrRef spec1 2) : S50000x1.Idx → Elt Ideal .f32) (ix2 r u) := by
  obtain ⟨-, -, -, -, e0, e1, -⟩ := index_facts1 t
  unfold iblk1
  rw [View.read_apply]
  show V c main_v27 _ = V c main_v27 _
  congr 1
  funext a
  apply Fin.ext
  match a with
  | ⟨0, _⟩ => show win1_2.index t 0 * 5000 + 1 * p.val = r.val; rw [e0, hr]; omega
  | ⟨1, _⟩ => show win1_2.index t 1 * 1 + 1 * u.val = u.val; rw [e1]; omega

/-- The bias row's block is the whole row at every point. -/
theorem b_block1 (c : Dev nD) (t : Fin cfg1.N) (u : Fin 1) (j : Fin 128) :
    (iblk1 V c 3 t : Vec Ideal S1x128 .f32) (ix2 u j)
      = (V c (Pipeline.arrRef spec1 3) : S1x128.Idx → Elt Ideal .f32) (ix2 u j) := by
  obtain ⟨-, -, -, -, -, -, e0, e1, -⟩ := index_facts1 t
  unfold iblk1
  rw [View.read_apply]
  show V c main_v44 _ = V c main_v44 _
  congr 1
  funext a
  apply Fin.ext
  match a with
  | ⟨0, _⟩ => show win1_3.index t 0 * 1 + 1 * u.val = u.val; rw [e0]; omega
  | ⟨1, _⟩ => show win1_3.index t 1 * 128 + 1 * j.val = j.val; rw [e1]; omega

/-- Entry (p, j) of point t's output block sits in the result at row r = 5000·t + p, column j. -/
theorem out_emb1 (t : Fin cfg1.N) (p : Fin 5000) (j : Fin 128) (r : Fin 50000)
    (hr : r.val = 5000 * t.val + p.val) :
    ((cfg1.win 4).blk t).view.emb (ix2 p j) = (ix2 r j : S50000x128.Idx) := by
  obtain ⟨-, -, -, -, -, -, -, -, e0, e1⟩ := index_facts1 t
  funext a
  apply Fin.ext
  match a with
  | ⟨0, _⟩ => show win1_4.index t 0 * 5000 + 1 * p.val = r.val; rw [e0, hr]; omega
  | ⟨1, _⟩ => show win1_4.index t 1 * 128 + 1 * j.val = j.val; rw [e1]; omega

/-- What point t writes back is block t of the whole-array update: at entry (p, j) both sides are the update's
    expression at row 5000·t + p, column j, each input block read at the row its rectangle names. -/
theorem flushed1 (c : Dev nD) (t : Fin cfg1.N) :
    (dat1 (F := Ideal) V c).flushed 4 t
      = ((cfg1.win 4).blk t).view.read (Elt Ideal)
          (Cert.Stage.combine128 (V c (Pipeline.arrRef spec1 0)) (V c (Pipeline.arrRef spec1 1))
            (V c (Pipeline.arrRef spec1 2)) (V c (Pipeline.arrRef spec1 3))) := by
  show (cfg1.win 4).cut (grid1.coords t) ((dat1 V c).after 4 t) = _
  rw [after1_4]
  funext y
  obtain ⟨p, j, rfl⟩ : ∃ (p : Fin 5000) (j : Fin 128), y = ix2 p j := ⟨y 0, y 1, eq_ix2 y⟩
  have ht : t.val < 10 := t.isLt
  have hp : p.val < 5000 := p.isLt
  have hr : (⟨5000 * t.val + p.val, by omega⟩ : Fin 50000).val = 5000 * t.val + p.val := rfl
  rw [View.read_apply, out_emb1 t p j _ hr]
  show out1_4 (iblk1 V c 0 t) (iblk1 V c 1 t) (iblk1 V c 2 t) (iblk1 V c 3 t) (ix2 p j)
    = Cert.Stage.combine128 _ _ _ _ _
  refine (out1_4_entry (iblk1 V c 0 t) (iblk1 V c 1 t) (iblk1 V c 2 t) (iblk1 V c 3 t) p j).trans ?_
  rw [combine128_entry, agg_block1 V c t p j _ hr, h_block1 V c t p j _ hr, s_block1 V c t p 0 _ hr,
    b_block1 V c t 0 j]

/-- An index of the result is in point t's block iff each coordinate is in the block's range on its axis. -/
theorem mem_block1 (t : Fin cfg1.N) (i : S50000x128.Idx) :
    i ∈ ((cfg1.win 4).blk t).view.set
      ↔ ∀ a : Fin 2, win1_4.index t a * S5000x128.size a ≤ (i a).val
          ∧ (i a).val < win1_4.index t a * S5000x128.size a + S5000x128.size a := by
  show i ∈ ((View.whole main_v45).slice (win1_4.rect t)).set ↔ _
  rw [View.set_slice_whole, Rect.mem_set_unit]
  exact Iff.rfl

/-- The ten row blocks tile the result: row r lies in the block of point r / 5000. -/
theorem cover1 (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have hN : grid1.N = 10 := N_1
  obtain ⟨t, ht⟩ : ∃ t : Fin cfg1.N, t.val = (i 0).val / 5000 :=
    ⟨⟨(i 0).val / 5000, by show _ < grid1.N; rw [hN]; omega⟩, rfl⟩
  obtain ⟨-, -, -, -, -, -, -, -, e0, e1⟩ := index_facts1 t
  refine ⟨t, flush1_4 t, ?_⟩
  rw [mem_block1]
  intro a
  match a with
  | ⟨0, _⟩ =>
    show win1_4.index t 0 * 5000 ≤ (i 0).val ∧ (i 0).val < win1_4.index t 0 * 5000 + 5000
    rw [e0, ht]; omega
  | ⟨1, _⟩ =>
    show win1_4.index t 1 * 128 ≤ (i 1).val ∧ (i 1).val < win1_4.index t 1 * 128 + 128
    rw [e1]; omega

/-- THE FIRST LAYER'S RESULT ARRAY after the region: the whole-array update of the four arrays the region reads. -/
theorem combine128_blocks (c : Dev nD) :
    (dat1 (F := Ideal) V c).arrAt 4 cfg1.N
      = Cert.Stage.combine128 (V c (Pipeline.arrRef spec1 0)) (V c (Pipeline.arrRef spec1 1))
          (V c (Pipeline.arrRef spec1 2)) (V c (Pipeline.arrRef spec1 3)) :=
  (dat1 V c).arrAt_eq_of_cover 4 _ (fun t _ => flushed1 V c t) cover1

/-! ## The second layer's region: the same over 64 columns -/

/-- The block indices at point t: row block t, column block 0 for the row-blocked windows; (0, 0) for the bias row. -/
theorem index_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Entry (p, j) of point t's block of `agg` is `agg` at row r = 5000·t + p, column j. -/
theorem agg_block3 (c : Dev nD) (t : Fin cfg3.N) (p : Fin 5000) (j : Fin 64) (r : Fin 50000)
    (hr : r.val = 5000 * t.val + p.val) :
    (iblk3 V c 0 t : Vec Ideal S5000x64 .f32) (ix2 p j)
      = (V c (Pipeline.arrRef spec3 0) : S50000x64.Idx → Elt Ideal .f32) (ix2 r j) := by
  obtain ⟨e0, e1, -⟩ := index_facts3 t
  unfold iblk3
  rw [View.read_apply]
  show V c main_v59 _ = V c main_v59 _
  congr 1
  funext a
  apply Fin.ext
  match a with
  | ⟨0, _⟩ => show win3_0.index t 0 * 5000 + 1 * p.val = r.val; rw [e0, hr]; omega
  | ⟨1, _⟩ => show win3_0.index t 1 * 64 + 1 * j.val = j.val; rw [e1]; omega

/-- Entry (p, j) of point t's block of `z` is `z` at row r = 5000·t + p, column j. -/
theorem z_block3 (c : Dev nD) (t : Fin cfg3.N) (p : Fin 5000) (j : Fin 64) (r : Fin 50000)
    (hr : r.val = 5000 * t.val + p.val) :
    (iblk3 V c 1 t : Vec Ideal S5000x64 .f32) (ix2 p j)
      = (V c (Pipeline.arrRef spec3 1) : S50000x64.Idx → Elt Ideal .f32) (ix2 r j) := by
  obtain ⟨-, -, e0, e1, -⟩ := index_facts3 t
  unfold iblk3
  rw [View.read_apply]
  show V c main_v46 _ = V c main_v46 _
  congr 1
  funext a
  apply Fin.ext
  match a with
  | ⟨0, _⟩ => show win3_1.index t 0 * 5000 + 1 * p.val = r.val; rw [e0, hr]; omega
  | ⟨1, _⟩ => show win3_1.index t 1 * 64 + 1 * j.val = j.val; rw [e1]; omega

/-- Entry (p, 0) of point t's block of the scale column is the column at row r = 5000·t + p. -/
theorem s_block3 (c : Dev nD) (t : Fin cfg3.N) (p : Fin 5000) (u : Fin 1) (r : Fin 50000)
    (hr : r.val = 5000 * t.val + p.val) :
    (iblk3 V c 2 t : Vec Ideal S5000x1 .f32) (ix2 p u)
      = (V c (Pipeline.arrRef spec3 2) : S50000x1.Idx → Elt Ideal .f32) (ix2 r u) := by
  obtain ⟨-, -, -, -, e0, e1, -⟩ := index_facts3 t
  unfold iblk3
  rw [View.read_apply]
  show V c main_v27 _ = V c main_v27 _
  congr 1
  funext a
  apply Fin.ext
  match a with
  | ⟨0, _⟩ => show win3_2.index t 0 * 5000 + 1 * p.val = r.val; rw [e0, hr]; omega
  | ⟨1, _⟩ => show win3_2.index t 1 * 1 + 1 * u.val = u.val; rw [e1]; omega

/-- The bias row's block is the whole row at every point. -/
theorem b_block3 (c : Dev nD) (t : Fin cfg3.N) (u : Fin 1) (j : Fin 64) :
    (iblk3 V c 3 t : Vec Ideal S1x64 .f32) (ix2 u j)
      = (V c (Pipeline.arrRef spec3 3) : S1x64.Idx → Elt Ideal .f32) (ix2 u j) := by
  obtain ⟨-, -, -, -, -, -, e0, e1, -⟩ := index_facts3 t
  unfold iblk3
  rw [View.read_apply]
  show V c main_v60 _ = V c main_v60 _
  congr 1
  funext a
  apply Fin.ext
  match a with
  | ⟨0, _⟩ => show win3_3.index t 0 * 1 + 1 * u.val = u.val; rw [e0]; omega
  | ⟨1, _⟩ => show win3_3.index t 1 * 64 + 1 * j.val = j.val; rw [e1]; omega

/-- Entry (p, j) of point t's output block sits in the result at row r = 5000·t + p, column j. -/
theorem out_emb3 (t : Fin cfg3.N) (p : Fin 5000) (j : Fin 64) (r : Fin 50000)
    (hr : r.val = 5000 * t.val + p.val) :
    ((cfg3.win 4).blk t).view.emb (ix2 p j) = (ix2 r j : S50000x64.Idx) := by
  obtain ⟨-, -, -, -, -, -, -, -, e0, e1⟩ := index_facts3 t
  funext a
  apply Fin.ext
  match a with
  | ⟨0, _⟩ => show win3_4.index t 0 * 5000 + 1 * p.val = r.val; rw [e0, hr]; omega
  | ⟨1, _⟩ => show win3_4.index t 1 * 64 + 1 * j.val = j.val; rw [e1]; omega

/-- What point t writes back is block t of the whole-array update. -/
theorem flushed3 (c : Dev nD) (t : Fin cfg3.N) :
    (dat3 (F := Ideal) V c).flushed 4 t
      = ((cfg3.win 4).blk t).view.read (Elt Ideal)
          (Cert.Stage.combine64 (V c (Pipeline.arrRef spec3 0)) (V c (Pipeline.arrRef spec3 1))
            (V c (Pipeline.arrRef spec3 2)) (V c (Pipeline.arrRef spec3 3))) := by
  show (cfg3.win 4).cut (grid3.coords t) ((dat3 V c).after 4 t) = _
  rw [after3_4]
  funext y
  obtain ⟨p, j, rfl⟩ : ∃ (p : Fin 5000) (j : Fin 64), y = ix2 p j := ⟨y 0, y 1, eq_ix2 y⟩
  have ht : t.val < 10 := t.isLt
  have hp : p.val < 5000 := p.isLt
  have hr : (⟨5000 * t.val + p.val, by omega⟩ : Fin 50000).val = 5000 * t.val + p.val := rfl
  rw [View.read_apply, out_emb3 t p j _ hr]
  show out3_4 (iblk3 V c 0 t) (iblk3 V c 1 t) (iblk3 V c 2 t) (iblk3 V c 3 t) (ix2 p j)
    = Cert.Stage.combine64 _ _ _ _ _
  refine (out3_4_entry (iblk3 V c 0 t) (iblk3 V c 1 t) (iblk3 V c 2 t) (iblk3 V c 3 t) p j).trans ?_
  rw [combine64_entry, agg_block3 V c t p j _ hr, z_block3 V c t p j _ hr, s_block3 V c t p 0 _ hr,
    b_block3 V c t 0 j]

/-- An index of the result is in point t's block iff each coordinate is in the block's range on its axis. -/
theorem mem_block3 (t : Fin cfg3.N) (i : S50000x64.Idx) :
    i ∈ ((cfg3.win 4).blk t).view.set
      ↔ ∀ a : Fin 2, win3_4.index t a * S5000x64.size a ≤ (i a).val
          ∧ (i a).val < win3_4.index t a * S5000x64.size a + S5000x64.size a := by
  show i ∈ ((View.whole main_v61).slice (win3_4.rect t)).set ↔ _
  rw [View.set_slice_whole, Rect.mem_set_unit]
  exact Iff.rfl

/-- The ten row blocks tile the result: row r lies in the block of point r / 5000. -/
theorem cover3 (i : S50000x64.Idx) :
    ∃ t : Fin cfg3.N, (cfg3.win 4).flush t = true ∧ i ∈ ((cfg3.win 4).blk t).view.set := by
  have hi0 : (i 0).val < 50000 := (i 0).isLt
  have hi1 : (i 1).val < 64 := (i 1).isLt
  have hN : grid3.N = 10 := N_3
  obtain ⟨t, ht⟩ : ∃ t : Fin cfg3.N, t.val = (i 0).val / 5000 :=
    ⟨⟨(i 0).val / 5000, by show _ < grid3.N; rw [hN]; omega⟩, rfl⟩
  obtain ⟨-, -, -, -, -, -, -, -, e0, e1⟩ := index_facts3 t
  refine ⟨t, flush3_4 t, ?_⟩
  rw [mem_block3]
  intro a
  match a with
  | ⟨0, _⟩ =>
    show win3_4.index t 0 * 5000 ≤ (i 0).val ∧ (i 0).val < win3_4.index t 0 * 5000 + 5000
    rw [e0, ht]; omega
  | ⟨1, _⟩ =>
    show win3_4.index t 1 * 64 ≤ (i 1).val ∧ (i 1).val < win3_4.index t 1 * 64 + 64
    rw [e1]; omega

/-- THE SECOND LAYER'S RESULT ARRAY after the region: the whole-array update of the four arrays the region reads. -/
theorem combine64_blocks (c : Dev nD) :
    (dat3 (F := Ideal) V c).arrAt 4 cfg3.N
      = Cert.Stage.combine64 (V c (Pipeline.arrRef spec3 0)) (V c (Pipeline.arrRef spec3 1))
          (V c (Pipeline.arrRef spec3 2)) (V c (Pipeline.arrRef spec3 3)) :=
  (dat3 V c).arrAt_eq_of_cover 4 _ (fun t _ => flushed3 V c t) cover3

end Cert.KernelIdeal.Blocks

end
-- ==== Proof.LibColumnBroadcast.lean ====
/-
  Two spellings of "a vector as a column". A vector `[a]` reshaped to `[a, 1]` and the same vector broadcast into
  `[a, 1]` along its own axis (`broadcast_in_dim`, dims = [0]) are one array: at `(i, u)` both read the vector at
  `i`, the reshape because both indices have row-major position `i`, the broadcast because the result's axis 0 is the
  operand's only axis.
-/
import Idealize.ShloMosaic.Lib.Pipeline.Value
import Idealize.ShloMosaic.Lib.ValueIdx

namespace Cert.ColumnForms

open Idealize.ShloMosaic Idealize.ShloMosaic.ValueIdx

variable {α : Type}

/-- A vector broadcast into a column along its own axis reads, at `(i, u)`, the vector at `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- The reshape of a vector to a column is its broadcast into the column. -/
theorem shapeCast_eq_broadcastInDim {a : ℕ} (x : (⟨1, ![a]⟩ : Shape).Idx → α)
    (hs : (⟨1, ![a]⟩ : Shape).ShapeCasts ⟨2, ![a, 1]⟩) (hb : (⟨1, ![a]⟩ : Shape).BroadcastsInDim ⟨2, ![a, 1]⟩ ![0]) :
    shapeCast ⟨2, ![a, 1]⟩ x hs = broadcastInDim ⟨2, ![a, 1]⟩ ![0] hb x := by
  funext j
  obtain ⟨i, u, rfl⟩ : ∃ (i : Fin a) (u : Fin 1), j = ix2 i u := ⟨j 0, j 1, eq_ix2 j⟩
  rw [broadcastInDim_a_a1_apply]
  refine shapeCast_apply x hs _ _ ?_
  have hu : u.val = 0 := by omega
  rw [Shape.rowMajor_val_two, Shape.rowMajor_val_one]
  show i.val = i.val * 1 + u.val
  rw [hu, Nat.mul_one, Nat.add_zero]

end Cert.ColumnForms
-- ==== Proof.LibRowVector.lean ====
/-
  A vector laid out as a row. Reshaping a vector of n entries to a [1, n] array and broadcasting it to a [1, n] array
  along the second axis give the same array: entry (0, j) of either is entry j of the vector.
-/
import Idealize.ShloMosaic.Lib.Pipeline.Value
import Idealize.ShloMosaic.Lib.ValueIdx

noncomputable section

namespace Cert.RowVector

open Idealize.ShloMosaic

variable {α : Type} {n : ℕ}

/-- The reshape of a vector to a row, read at an entry: the vector at the entry's column. -/
theorem reshape_apply (x : (⟨1, ![n]⟩ : Shape).Idx → α) (h : (⟨1, ![n]⟩ : Shape).ShapeCasts ⟨2, ![1, n]⟩)
    (j : (⟨2, ![1, n]⟩ : Shape).Idx) : shapeCast ⟨2, ![1, n]⟩ x h j = x (fun a => j a.succ) :=
  shapeCast_addUnit_apply ![n] x h j

/-- The broadcast of a vector to a row along the second axis, read at an entry: the vector at the entry's column. -/
theorem broadcast_apply (x : (⟨1, ![n]⟩ : Shape).Idx → α) (h : (⟨1, ![n]⟩ : Shape).BroadcastsInDim ⟨2, ![1, n]⟩ ![1])
    (j : (⟨2, ![1, n]⟩ : Shape).Idx) : broadcastInDim ⟨2, ![1, n]⟩ ![1] h x j = x (fun a => j a.succ) := by
  refine broadcastInDim_apply ![1] h x j (fun a => j a.succ) (fun a => ?_)
  match a with
  | ⟨0, _⟩ =>
    show (j 1).val = if n = 1 then 0 else (j 1).val
    by_cases h1 : n = 1
    · rw [if_pos h1]
      have hlt : (j 1).val < n := (j 1).isLt
      omega
    · rw [if_neg h1]

/-- The two layouts are one array. -/
theorem reshape_eq_broadcast (x : (⟨1, ![n]⟩ : Shape).Idx → α) (h : (⟨1, ![n]⟩ : Shape).ShapeCasts ⟨2, ![1, n]⟩)
    (hb : (⟨1, ![n]⟩ : Shape).BroadcastsInDim ⟨2, ![1, n]⟩ ![1]) :
    shapeCast ⟨2, ![1, n]⟩ x h = broadcastInDim ⟨2, ![1, n]⟩ ![1] hb x :=
  funext fun j => (reshape_apply x h j).trans (broadcast_apply x hb j).symm

end Cert.RowVector

end
-- ==== Proof.Bridge.lean ====
/-
  The idealized kernel program's buffers, boundary by boundary, as the reference's stages of the launch arrays.

  The program runs eight segments. After each one, every buffer a later segment reads is named here as a function of
  the seven argument arrays, and that function is the one the reference program computes for the corresponding value:
  the index vectors src and dst, the normalisation vector dinv = rsqrt (deg + 1), the edge weights
  norm = dinv[src] · dinv[dst], the self-loop scale dinv · dinv as a column, the projected features x·W1, the
  neighbourhood sums scattered to the destination nodes, the first layer's rectified update h, then z·W2, its
  neighbourhood sums, the second layer's update z, and last the decoded products summed over the 64 lanes.
  A host stretch applies its operations to the contents it starts from; a region leaves its output array at the
  stage function of its input arrays and every other buffer as it found it; an argument array, a weight cast or an
  index vector written once is carried unchanged to where it is read.
  The two programs spell a vector laid as a column (and a bias laid as a row) differently, one by a reshape and one by
  a broadcast along the vector's own axis: both arrays hold the vector's entry i at (i, 0) (at (0, i)).
-/
import proofs.«140468_j30296699306334_2_alg».proof.Proof.Gen.KernelIdeal.Frame
import proofs.«140468_j30296699306334_2_alg».proof.Proof.Gen.ReferenceIdeal.Read
import proofs.«140468_j30296699306334_2_alg».proof.Proof.RefStages
import proofs.«140468_j30296699306334_2_alg».proof.Proof.ProjBlocks
import proofs.«140468_j30296699306334_2_alg».proof.Proof.CombineBlocks
import proofs.«140468_j30296699306334_2_alg».proof.Proof.LibColumnBroadcast
import proofs.«140468_j30296699306334_2_alg».proof.Proof.LibRowVector

set_option maxRecDepth 16384

noncomputable section

namespace Cert.KernelIdeal.Bridge

open Idealize.ShloMosaic Idealize.ShloMosaic.TcCoe Idealize.SL.Sem Idealize.ShloMosaic.StableHlo
open Cert.KernelIdeal Cert.KernelIdeal.Gen
open Cert.ReferenceIdeal.Read Cert.Stage

variable (m : (ℓ : Loc nD τ sig) → Buf (Elt Ideal) ℓ) (ρ : Dev nD → PrngReg) (c : Dev nD)

/-! ## After the first host stretch: the index vectors, the normalisation, the edge weights, the scale column, the
    weight casts (the identity on extended reals) -/

theorem w1_arg0 : W1 m ρ c (Proc.devRef .tc main_arg0) = (m ((c : Thread nD τ).loc main_arg0)) := by
  dsimp only [W1, hostOps0]; after_results_simp <;> rfl
theorem w1_arg2 : W1 m ρ c (Proc.devRef .tc main_arg2) = (m ((c : Thread nD τ).loc main_arg2)) := by
  dsimp only [W1, hostOps0]; after_results_simp <;> rfl
theorem w1_arg4 : W1 m ρ c (Proc.devRef .tc main_arg4) = (m ((c : Thread nD τ).loc main_arg4)) := by
  dsimp only [W1, hostOps0]; after_results_simp <;> rfl
theorem w1_arg6 : W1 m ρ c (Proc.devRef .tc main_arg6) = (m ((c : Thread nD τ).loc main_arg6)) := by
  dsimp only [W1, hostOps0]; after_results_simp <;> rfl
/-- The source endpoints of the edges. -/
theorem w1_src : W1 m ρ c (Proc.devRef .tc main_v1) = val_main_v1 (F := Ideal) (m ((c : Thread nD τ).loc main_arg5)) := by
  dsimp only [W1, hostOps0]; after_results_simp <;> rfl
/-- The destination endpoints of the edges. -/
theorem w1_dst : W1 m ρ c (Proc.devRef .tc main_v3) = val_main_v3 (F := Ideal) (m ((c : Thread nD τ).loc main_arg5)) := by
  dsimp only [W1, hostOps0]; after_results_simp <;> rfl
/-- The edge weights dinv[src] · dinv[dst]. -/
theorem w1_norm : W1 m ρ c (Proc.devRef .tc main_v25) = val_main_v26 (F := Ideal) (m ((c : Thread nD τ).loc main_arg5)) := by
  dsimp only [W1, hostOps0]; after_results_simp <;> rfl
/-- The self-loop scale dinv · dinv as a column: the kernel reshapes the vector, the reference broadcasts it along its
    own axis. -/
theorem w1_scale : W1 m ρ c (Proc.devRef .tc main_v27) = val_main_v41 (F := Ideal) (m ((c : Thread nD τ).loc main_arg5)) := by
  dsimp only [W1, hostOps0]; after_results_simp
  refine (Cert.ColumnForms.shapeCast_eq_broadcastInDim (a := 50000) _ _
    Cert.ReferenceIdeal.Facts₀.bcast_S50000_S50000x1_0).trans ?_
  rfl
/-- The first weights, cast: the same extended reals. -/
theorem w1_w1 : W1 m ρ c (Proc.devRef .tc main_v28) = (m ((c : Thread nD τ).loc main_arg1)) := by
  dsimp only [W1, hostOps0]; after_results_simp <;> rfl
/-- The second weights, cast: the same extended reals. -/
theorem w1_w2 : W1 m ρ c (Proc.devRef .tc main_v29) = (m ((c : Thread nD τ).loc main_arg3)) := by
  dsimp only [W1, hostOps0]; after_results_simp <;> rfl

/-! ## After region 0: the projected features; everything else as before -/

/-- The projected features x·W1. -/
theorem w2_hlin : W2 m ρ c (Proc.devRef .tc main_v30) = val_main_v4 (F := Ideal) (m ((c : Thread nD τ).loc main_arg0)) (m ((c : Thread nD τ).loc main_arg1)) := by
  refine (W2_arr m ρ c 2).trans ?_
  rw [Cert.KernelIdeal.Blocks.proj128_blocks, Cert.ReferenceIdeal.Stages.hlin_eq]
  show proj128 (W1 m ρ c (Proc.devRef .tc main_arg0)) (W1 m ρ c (Proc.devRef .tc main_v28)) = _
  rw [w1_arg0, w1_w1]

theorem w2_src : W2 m ρ c (Proc.devRef .tc main_v1) = val_main_v1 (F := Ideal) (m ((c : Thread nD τ).loc main_arg5)) :=
  (W2_of_ne m ρ c main_v1 (by decide)).trans (w1_src m ρ c)
theorem w2_dst : W2 m ρ c (Proc.devRef .tc main_v3) = val_main_v3 (F := Ideal) (m ((c : Thread nD τ).loc main_arg5)) :=
  (W2_of_ne m ρ c main_v3 (by decide)).trans (w1_dst m ρ c)
theorem w2_norm : W2 m ρ c (Proc.devRef .tc main_v25) = val_main_v26 (F := Ideal) (m ((c : Thread nD τ).loc main_arg5)) :=
  (W2_of_ne m ρ c main_v25 (by decide)).trans (w1_norm m ρ c)
theorem w2_scale : W2 m ρ c (Proc.devRef .tc main_v27) = val_main_v41 (F := Ideal) (m ((c : Thread nD τ).loc main_arg5)) :=
  (W2_of_ne m ρ c main_v27 (by decide)).trans (w1_scale m ρ c)
theorem w2_w2 : W2 m ρ c (Proc.devRef .tc main_v29) = (m ((c : Thread nD τ).loc main_arg3)) :=
  (W2_of_ne m ρ c main_v29 (by decide)).trans (w1_w2 m ρ c)
theorem w2_arg2 : W2 m ρ c (Proc.devRef .tc main_arg2) = (m ((c : Thread nD τ).loc main_arg2)) :=
  (W2_of_ne m ρ c main_arg2 (by decide)).trans (w1_arg2 m ρ c)
theorem w2_arg4 : W2 m ρ c (Proc.devRef .tc main_arg4) = (m ((c : Thread nD τ).loc main_arg4)) :=
  (W2_of_ne m ρ c main_arg4 (by decide)).trans (w1_arg4 m ρ c)
theorem w2_arg6 : W2 m ρ c (Proc.devRef .tc main_arg6) = (m ((c : Thread nD τ).loc main_arg6)) :=
  (W2_of_ne m ρ c main_arg6 (by decide)).trans (w1_arg6 m ρ c)

/-! ## After the second host stretch: the first layer's neighbourhood sums and the bias row -/

/-- The neighbourhood sums of the first layer: the projected features gathered at the sources, weighted, and added
    into the destinations. -/
theorem w3_agg : W3 m ρ c (Proc.devRef .tc main_v43) = val_main_v39 (F := Ideal) (m ((c : Thread nD τ).loc main_arg0)) (m ((c : Thread nD τ).loc main_arg1)) (m ((c : Thread nD τ).loc main_arg5)) := by
  dsimp only [W3, hostOps1]; after_results_simp
  rw [w2_hlin, w2_src, w2_dst, w2_norm]
  rfl
/-- The first bias as a row: the kernel reshapes the vector, the reference broadcasts it along its own axis. -/
theorem w3_bias : W3 m ρ c (Proc.devRef .tc main_v44) = val_main_v45 (F := Ideal) (m ((c : Thread nD τ).loc main_arg2)) := by
  dsimp only [W3, hostOps1]; after_results_simp
  rw [w2_arg2]
  exact Cert.RowVector.reshape_eq_broadcast (n := 128) _ _ Cert.ReferenceIdeal.Facts₀.bcast_S128_S1x128_1
theorem w3_hlin : W3 m ρ c (Proc.devRef .tc main_v30) = val_main_v4 (F := Ideal) (m ((c : Thread nD τ).loc main_arg0)) (m ((c : Thread nD τ).loc main_arg1)) := by
  dsimp only [W3, hostOps1]; after_results_simp; exact w2_hlin m ρ c
theorem w3_scale : W3 m ρ c (Proc.devRef .tc main_v27) = val_main_v41 (F := Ideal) (m ((c : Thread nD τ).loc main_arg5)) := by
  dsimp only [W3, hostOps1]; after_results_simp; exact w2_scale m ρ c
theorem w3_src : W3 m ρ c (Proc.devRef .tc main_v1) = val_main_v1 (F := Ideal) (m ((c : Thread nD τ).loc main_arg5)) := by
  dsimp only [W3, hostOps1]; after_results_simp; exact w2_src m ρ c
theorem w3_dst : W3 m ρ c (Proc.devRef .tc main_v3) = val_main_v3 (F := Ideal) (m ((c : Thread nD τ).loc main_arg5)) := by
  dsimp only [W3, hostOps1]; after_results_simp; exact w2_dst m ρ c
theorem w3_norm : W3 m ρ c (Proc.devRef .tc main_v25) = val_main_v26 (F := Ideal) (m ((c : Thread nD τ).loc main_arg5)) := by
  dsimp only [W3, hostOps1]; after_results_simp; exact w2_norm m ρ c
theorem w3_w2 : W3 m ρ c (Proc.devRef .tc main_v29) = (m ((c : Thread nD τ).loc main_arg3)) := by
  dsimp only [W3, hostOps1]; after_results_simp; exact w2_w2 m ρ c
theorem w3_arg4 : W3 m ρ c (Proc.devRef .tc main_arg4) = (m ((c : Thread nD τ).loc main_arg4)) := by
  dsimp only [W3, hostOps1]; after_results_simp; exact w2_arg4 m ρ c
theorem w3_arg6 : W3 m ρ c (Proc.devRef .tc main_arg6) = (m ((c : Thread nD τ).loc main_arg6)) := by
  dsimp only [W3, hostOps1]; after_results_simp; exact w2_arg6 m ρ c

/-! ## After region 1: the first layer's output -/

/-- The first layer's output h = max ((agg + s · x·W1) + b1) 0. -/
theorem w4_h : W4 m ρ c (Proc.devRef .tc main_v45) = val_main_v48 (F := Ideal) (m ((c : Thread nD τ).loc main_arg0)) (m ((c : Thread nD τ).loc main_arg1)) (m ((c : Thread nD τ).loc main_arg2)) (m ((c : Thread nD τ).loc main_arg5)) := by
  refine (W4_arr m ρ c 4).trans ?_
  rw [Cert.KernelIdeal.Blocks.combine128_blocks, Cert.ReferenceIdeal.Stages.h_eq]
  show combine128 (W3 m ρ c (Proc.devRef .tc main_v43)) (W3 m ρ c (Proc.devRef .tc main_v30))
    (W3 m ρ c (Proc.devRef .tc main_v27)) (W3 m ρ c (Proc.devRef .tc main_v44)) = _
  rw [w3_agg, w3_hlin, w3_scale, w3_bias]

theorem w4_w2 : W4 m ρ c (Proc.devRef .tc main_v29) = (m ((c : Thread nD τ).loc main_arg3)) :=
  (W4_of_ne m ρ c main_v29 (by decide)).trans (w3_w2 m ρ c)
theorem w4_src : W4 m ρ c (Proc.devRef .tc main_v1) = val_main_v1 (F := Ideal) (m ((c : Thread nD τ).loc main_arg5)) :=
  (W4_of_ne m ρ c main_v1 (by decide)).trans (w3_src m ρ c)
theorem w4_dst : W4 m ρ c (Proc.devRef .tc main_v3) = val_main_v3 (F := Ideal) (m ((c : Thread nD τ).loc main_arg5)) :=
  (W4_of_ne m ρ c main_v3 (by decide)).trans (w3_dst m ρ c)
theorem w4_norm : W4 m ρ c (Proc.devRef .tc main_v25) = val_main_v26 (F := Ideal) (m ((c : Thread nD τ).loc main_arg5)) :=
  (W4_of_ne m ρ c main_v25 (by decide)).trans (w3_norm m ρ c)
theorem w4_arg4 : W4 m ρ c (Proc.devRef .tc main_arg4) = (m ((c : Thread nD τ).loc main_arg4)) :=
  (W4_of_ne m ρ c main_arg4 (by decide)).trans (w3_arg4 m ρ c)
theorem w4_arg6 : W4 m ρ c (Proc.devRef .tc main_arg6) = (m ((c : Thread nD τ).loc main_arg6)) :=
  (W4_of_ne m ρ c main_arg6 (by decide)).trans (w3_arg6 m ρ c)
/-- The scale column is one of region 1's input arrays: the region leaves it as it found it. -/
theorem w4_scale : W4 m ρ c (Proc.devRef .tc main_v27) = val_main_v41 (F := Ideal) (m ((c : Thread nD τ).loc main_arg5)) :=
  ((W4_arr m ρ c 2).trans (((dat1 (V3 m ρ) c).arrAt_in 2 rfl _).trans (A_eq1 (V3 m ρ) c 2))).trans (w3_scale m ρ c)

/-! ## After region 2: the second projection -/

/-- The second projection h·W2. -/
theorem w5_zlin : W5 m ρ c (Proc.devRef .tc main_v46) = val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg5)) := by
  refine (W5_arr m ρ c 2).trans ?_
  rw [Cert.KernelIdeal.Blocks.proj64_blocks, Cert.ReferenceIdeal.Stages.zlin_eq]
  show proj64 (W4 m ρ c (Proc.devRef .tc main_v45)) (W4 m ρ c (Proc.devRef .tc main_v29)) = _
  rw [w4_h, w4_w2]

theorem w5_src : W5 m ρ c (Proc.devRef .tc main_v1) = val_main_v1 (F := Ideal) (m ((c : Thread nD τ).loc main_arg5)) :=
  (W5_of_ne m ρ c main_v1 (by decide)).trans (w4_src m ρ c)
theorem w5_dst : W5 m ρ c (Proc.devRef .tc main_v3) = val_main_v3 (F := Ideal) (m ((c : Thread nD τ).loc main_arg5)) :=
  (W5_of_ne m ρ c main_v3 (by decide)).trans (w4_dst m ρ c)
theorem w5_norm : W5 m ρ c (Proc.devRef .tc main_v25) = val_main_v26 (F := Ideal) (m ((c : Thread nD τ).loc main_arg5)) :=
  (W5_of_ne m ρ c main_v25 (by decide)).trans (w4_norm m ρ c)
theorem w5_scale : W5 m ρ c (Proc.devRef .tc main_v27) = val_main_v41 (F := Ideal) (m ((c : Thread nD τ).loc main_arg5)) :=
  (W5_of_ne m ρ c main_v27 (by decide)).trans (w4_scale m ρ c)
theorem w5_arg4 : W5 m ρ c (Proc.devRef .tc main_arg4) = (m ((c : Thread nD τ).loc main_arg4)) :=
  (W5_of_ne m ρ c main_arg4 (by decide)).trans (w4_arg4 m ρ c)
theorem w5_arg6 : W5 m ρ c (Proc.devRef .tc main_arg6) = (m ((c : Thread nD τ).loc main_arg6)) :=
  (W5_of_ne m ρ c main_arg6 (by decide)).trans (w4_arg6 m ρ c)

/-! ## After the third host stretch: the second layer's neighbourhood sums and the bias row -/

/-- The neighbourhood sums of the second layer, with the edge weights computed once: the reference computes them
    again for this layer, to the same array. -/
theorem w6_agg : W6 m ρ c (Proc.devRef .tc main_v59) = val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg5)) := by
  dsimp only [W6, hostOps3]; after_results_simp
  rw [w5_zlin, w5_src, w5_dst, w5_norm, ← Cert.ReferenceIdeal.Stages.norm_again]
  rfl
/-- The second bias as a row. -/
theorem w6_bias : W6 m ρ c (Proc.devRef .tc main_v60) = val_main_v90 (F := Ideal) (m ((c : Thread nD τ).loc main_arg4)) := by
  dsimp only [W6, hostOps3]; after_results_simp
  rw [w5_arg4]
  exact Cert.RowVector.reshape_eq_broadcast (n := 64) _ _ Cert.ReferenceIdeal.Facts₀.bcast_S64_S1x64_1
theorem w6_zlin : W6 m ρ c (Proc.devRef .tc main_v46) = val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg5)) := by
  dsimp only [W6, hostOps3]; after_results_simp; exact w5_zlin m ρ c
theorem w6_scale : W6 m ρ c (Proc.devRef .tc main_v27) = val_main_v41 (F := Ideal) (m ((c : Thread nD τ).loc main_arg5)) := by
  dsimp only [W6, hostOps3]; after_results_simp; exact w5_scale m ρ c
theorem w6_arg6 : W6 m ρ c (Proc.devRef .tc main_arg6) = (m ((c : Thread nD τ).loc main_arg6)) := by
  dsimp only [W6, hostOps3]; after_results_simp; exact w5_arg6 m ρ c

/-! ## After region 3: the second layer's output -/

/-- The second layer's output z = (agg2 + s · h·W2) + b2, with the scale column computed once. -/
theorem w7_z : W7 m ρ c (Proc.devRef .tc main_v61) = val_main_v92 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W7_arr m ρ c 4).trans ?_
  rw [Cert.KernelIdeal.Blocks.combine64_blocks, Cert.ReferenceIdeal.Stages.z_eq, Cert.ReferenceIdeal.Stages.scale_again]
  show combine64 (W6 m ρ c (Proc.devRef .tc main_v59)) (W6 m ρ c (Proc.devRef .tc main_v46))
    (W6 m ρ c (Proc.devRef .tc main_v27)) (W6 m ρ c (Proc.devRef .tc main_v60)) = _
  rw [w6_agg, w6_zlin, w6_scale, w6_bias]
theorem w7_arg6 : W7 m ρ c (Proc.devRef .tc main_arg6) = (m ((c : Thread nD τ).loc main_arg6)) :=
  (W7_of_ne m ρ c main_arg6 (by decide)).trans (w6_arg6 m ρ c)

/-! ## After the last host stretch: the decoded scores -/

/-- The result: for each labelled pair, the product of the two endpoints' rows of z summed over the 64 lanes — the
    reference's result as a function of the seven argument arrays. -/
theorem w8_out : W8 m ρ c (Proc.devRef .tc main_v81) = val_main_v112 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  dsimp only [W8, hostOps4]; after_results_simp
  rw [w7_z, w7_arg6]
  rfl

end Cert.KernelIdeal.Bridge

end
-- ==== Proof.lean ====
/-
  A two-layer graph convolution with a dot-product decoder, as a tiled kernel program and as a plain reference, over the
  extended reals.

  Both programs compute, from node features x, weights W1, W2, biases b1, b2, an edge list and a list of labelled
  pairs: deg = (number of edges into each node) + 1, dinv = rsqrt deg, the edge weights norm = dinv[src] · dinv[dst];
  for each layer the projection (x·W1, then h·W2), its neighbourhood sums (rows gathered at the sources, weighted,
  added into the destinations), and the node update (agg + (dinv · dinv) · projection) + bias, rectified after the
  first layer; and for each labelled pair the product of its endpoints' rows of the second layer's output, summed
  over the 64 lanes.
  The kernel program runs the two projections and the two node updates as pipelined regions over row blocks (2000 and
  5000 rows per grid point) and everything indexed by edges as host operations; it computes dinv, norm and the scale
  column once, where the reference computes them once per layer. Over the extended reals a projection accumulated
  into a zero block is the host's contraction, a change of float format is the identity, and a region's row blocks
  tile the array, so every stage is the same function of the argument arrays in both programs, and the results agree
  entry by entry. No law used needs the inputs finite.
  The frames of the two kernel programs are the generated frame certificates; the reference's frame is its generated run
  with the result dropped; the kernel's idealization rewrote no operation.
-/
import proofs.«140468_j30296699306334_2_alg».proof.Defs
import proofs.«140468_j30296699306334_2_alg».proof.Proof.Gen.Kernel
import proofs.«140468_j30296699306334_2_alg».proof.Proof.Gen.Kernel.Skeleton
import proofs.«140468_j30296699306334_2_alg».proof.Proof.Gen.Kernel.Launch
import proofs.«140468_j30296699306334_2_alg».proof.Proof.Gen.Kernel.Points
import proofs.«140468_j30296699306334_2_alg».proof.Proof.Gen.Kernel.Frame
import proofs.«140468_j30296699306334_2_alg».proof.Proof.Gen.KernelIdeal
import proofs.«140468_j30296699306334_2_alg».proof.Proof.Gen.KernelIdeal.Skeleton
import proofs.«140468_j30296699306334_2_alg».proof.Proof.Gen.KernelIdeal.Launch
import proofs.«140468_j30296699306334_2_alg».proof.Proof.Gen.KernelIdeal.Points
import proofs.«140468_j30296699306334_2_alg».proof.Proof.Gen.KernelIdeal.Frame
import proofs.«140468_j30296699306334_2_alg».proof.Proof.Gen.ReferenceIdeal
import proofs.«140468_j30296699306334_2_alg».proof.Proof.Gen.ReferenceIdeal.Run
import proofs.«140468_j30296699306334_2_alg».proof.Proof.Gen.ReferenceIdeal.Read
import proofs.«140468_j30296699306334_2_alg».proof.Proof.Gen.Pre_finite_inputs
import proofs.«140468_j30296699306334_2_alg».proof.Proof.KRun
import proofs.«140468_j30296699306334_2_alg».proof.Proof.Bridge
import Idealize.ShloMosaic.Adequacy
import Idealize.ShloMosaic.Init

noncomputable section

namespace Cert.Proof

open Idealize.ShloMosaic Idealize.SL.Sem

/-- The kernel program as printed runs to the end with its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation of the kernel program. -/
theorem preserves : Cert.preserves_Kernel_KernelIdeal := trivial

/-- From memories agreeing on the arguments both programs end with the decoded scores the reference's last stage
    names: the kernel program because its last boundary's contents at the result buffer are that stage of its own
    arguments, the reference by its run read back, the arguments being the same arrays. -/
theorem algebraic : Cert.algebraic_KernelIdeal_ReferenceIdeal := by
  intro m ρ m' ρ' _ hagree
  refine ⟨fun c => Cert.ReferenceIdeal.Read.val_main_v112 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.Bridge.w8_out m ρ c), (h c).2⟩)
      (Cert.KernelIdeal.RunValue.run_result m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v112_eq, (hagree c).1, (hagree c).2.1, (hagree c).2.2.1, (hagree c).2.2.2.1,
      (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
